-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel

variable [Facts]

def fn {F : FTy → Type} [FloatOps F] (main_arg0 : FVec F S4x8192x128 .f32) (main_arg1 : FVec F S4x8192x128 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x8192x128 .f32 := Host.absf main_arg1
  let main_cst_0 : FVec F S_ .f32 := constant S_ .f32 0x7F800000#32
  let main_v5 : FVec F S4x8192x128 .f32 := broadcastInDim S4x8192x128 ![] bcast_S_S4x8192x128 main_cst_0
  let main_v6 : IVec S4x8192x128 1 := cmpf .olt main_v4 main_v5
  let main_c_1 : IVec S_ 1 := constantI S_ 1 1#1
  let main_v7 : IVec S_ 1 := (fun x v => Host.reduce IntOp.andi x v reducesTo_S4x8192x128_S_d0_1_2 h_S_) main_v6 main_c_1
  let main_v8 : IVec S_ 1 := andi main_v3 main_v7
  main_v8
-- ==== Kernel.lean ====
abbrev S4x8192x128 : Shape := ⟨3, ![4, 8192, 128]⟩
abbrev S4x8x128 : Shape := ⟨3, ![4, 8, 128]⟩
abbrev S1x1024x128 : Shape := ⟨3, ![1, 1024, 128]⟩
abbrev S1x8x128 : Shape := ⟨3, ![1, 8, 128]⟩
abbrev S1x8192 : Shape := ⟨2, ![1, 8192]⟩
abbrev S1024x1 : Shape := ⟨2, ![1024, 1]⟩
abbrev S1x1 : Shape := ⟨2, ![1, 1]⟩
abbrev S1024x128 : Shape := ⟨2, ![1024, 128]⟩
abbrev S1024 : Shape := ⟨1, ![1024]⟩
abbrev S1x1024 : Shape := ⟨2, ![1, 1024]⟩
abbrev S1024x1024 : Shape := ⟨2, ![1024, 1024]⟩
abbrev S1 : Shape := ⟨1, ![1]⟩
abbrev S8x128 : Shape := ⟨2, ![8, 128]⟩
abbrev S4x1x1 : Shape := ⟨3, ![4, 1, 1]⟩
abbrev S4 : Shape := ⟨1, ![4]⟩

abbrev nBuf : Space → Nat
  | .hbm => 5
  | .vmem => 9
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8x128, .f32⟩
  | .hbm, ⟨3, _⟩ => ⟨S4x1x1, .f32⟩
  | .hbm, ⟨4, _⟩ => ⟨S4, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x8x128, .f32⟩
  | .local _ .vmem, ⟨5, _⟩ => ⟨S1x8x128, .f32⟩
  | .local _ .vmem, ⟨6, _⟩ => ⟨S1x8192, .f32⟩
  | .local _ .vmem, ⟨7, _⟩ => ⟨S1024x1, .f32⟩
  | .local _ .vmem, ⟨8, _⟩ => ⟨S1x1, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v37 : BitVec 32 := Scalar.muli arg2 c1024_i32
  v37
def k0_off1 (i : grid0.Coords) : Fin 2 → Nat :=
  let c0_18 : Index := 0#32
  let arg2 : BitVec 32 := BitVec.ofNat 32 (i 2).val
  let c1024_i32 : BitVec 32 := 1024#32
  let v37 : BitVec 32 := Scalar.muli arg2 c1024_i32
  let v38 : BitVec 32 := v37
  let v39 : Index := Scalar.indexCast v38
  ![0, v39.toNat]
def k0_cond4 (i : grid0.Coords) : BitVec 1 :=
  let arg1 : BitVec 32 := BitVec.ofNat 32 (i 1).val
  let c7_i32_21 : BitVec 32 := 7#32
  let v49 : BitVec 1 := Scalar.cmpi .eq arg1 c7_i32_21
  let arg2 : BitVec 32 := BitVec.ofNat 32 (i 2).val
  let c7_i32_22 : BitVec 32 := 7#32
  let v50 : BitVec 1 := Scalar.cmpi .eq arg2 c7_i32_22
  let v51 : BitVec 1 := Scalar.andi v49 v50
  let v52 : BitVec 32 := Scalar.extui v51
  let c0_i32_23 : BitVec 32 := 0#32
  let v53 : BitVec 1 := Scalar.cmpi .ne v52 c0_i32_23
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  reduces_S1024x1_S1 : S1024x1.Reduces [0] S1
  shapeCasts_S1_S1x1 : S1.ShapeCasts S1x1
  reduces_S1x8192_S1 : S1x8192.Reduces [1] S1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S4x8x128_S4x1x1_0_0_0 : S4x8x128.Slices ![0, 0, 0] S4x1x1
  shapeCasts_S4x1x1_S4 : S4x1x1.ShapeCasts S4
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x8192x128.size a
  hwx0_0 : ∀ i : grid0.Coords, EltTy.bits .f32 = 32 ∨ (Rect.block (s := S4x8192x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x8192x128.size a
  hwx0_1 : ∀ i : grid0.Coords, EltTy.bits .f32 = 32 ∨ (Rect.block (s := S4x8192x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4x8192x128 : Shape := ⟨3, ![4, 8192, 128]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4 : Shape := ⟨1, ![4]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8192x128, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x128, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4, .f32⟩
  | .hbm, ⟨26, _⟩ => ⟨S4, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S4x8192x128_S4x8192_d2 : S4x8192x128.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  reducesTo_S4x8192x8192_S4x8192_d1 : S4x8192x8192.ReducesTo [1] S4x8192
  dot_S4x8192x128_S4x8192x128_S4x8192x8192_2_2_1_1_0_0_wf : DotDims.WF S4x8192x128 S4x8192x128 S4x8192x8192 [2] [2] [1] [1] [0] [0]

variable [Facts₀]

def dot_S4x8192x128_S4x8192x128_S4x8192x8192_2_2_1_1_0_0 : DotDims S4x8192x128 S4x8192x128 S4x8192x8192 where
  lhsContracting := [2]
  rhsContracting := [2]
  lhsNonContracting := [1]
  rhsNonContracting := [1]
  lhsBatch := [0]
  rhsBatch := [0]
  wf := dot_S4x8192x128_S4x8192x128_S4x8192x8192_2_2_1_1_0_0_wf

class Facts : Prop extends Facts₀ where

variable [Facts]
-- ==== Proof.Spec.lean ====
import Idealize.ShloMosaic.PureOps.Ideal
import Idealize.ShloMosaic.Lib.ValueIdx

/-!
# The function both programs compute

For each of the four batches the two programs form the matrix of squared distances
D r c = |x_r|² + |y_c|² − 2·⟨x_r, y_c⟩ between the 8192 rows of X and the 8192 rows of Y, and return
max (max_r min_c D r c) (max_c min_r D r c). This module states that function over the extended reals, and
the running quantities of a sweep that visits the 8 × 8 tiles of D (1024 × 1024 entries each) row tile by
row tile: the minimum of each column over the rows seen so far, the minimum of each row of the current row
tile over the columns seen so far, and the maximum of the finished rows' minima. Indices are natural numbers
and the minima and maxima are taken over ranges, so that the step equations are arithmetic on the bounds.
-/

noncomputable section

namespace Cert.Hausdorff

open Finset Idealize.ShloMosaic Idealize.ShloMosaic.ValueIdx

/-- An argument array: four batches of 8192 rows of 128 extended reals. -/
abbrev Arr : Type := FVec Ideal ⟨3, ![4, 8192, 128]⟩ .f32

/-- A natural number as a batch number (reduced modulo 4). -/
def f4 (a : ℕ) : Fin 4 := ⟨a % 4, Nat.mod_lt _ (by decide)⟩
/-- A natural number as a row number (reduced modulo 8192). -/
def f8192 (a : ℕ) : Fin 8192 := ⟨a % 8192, Nat.mod_lt _ (by decide)⟩
/-- A natural number as a position inside a tile (reduced modulo 1024). -/
def f1024 (a : ℕ) : Fin 1024 := ⟨a % 1024, Nat.mod_lt _ (by decide)⟩

theorem f4_val {a : ℕ} (h : a < 4) : (f4 a).val = a := Nat.mod_eq_of_lt h
theorem f8192_val {a : ℕ} (h : a < 8192) : (f8192 a).val = a := Nat.mod_eq_of_lt h
theorem f1024_val {a : ℕ} (h : a < 1024) : (f1024 a).val = a := Nat.mod_eq_of_lt h
theorem f4_fin (a : Fin 4) : f4 a.val = a := Fin.ext (Nat.mod_eq_of_lt a.isLt)
theorem f8192_fin (a : Fin 8192) : f8192 a.val = a := Fin.ext (Nat.mod_eq_of_lt a.isLt)
theorem f1024_fin (a : Fin 1024) : f1024 a.val = a := Fin.ext (Nat.mod_eq_of_lt a.isLt)

/-- The squared distance between row r of X and row c of Y in batch b, as both programs spell it:
    (|x|² + |y|²) − 2·⟨x, y⟩, the literal 2.0 kept as its word. -/
def dist (X Y : Arr) (b : Fin 4) (r c : Fin 8192) : EReal :=
  ((∑ k : Fin 128, X (ix3 b r k) * X (ix3 b r k)) + (∑ k : Fin 128, Y (ix3 b c k) * Y (ix3 b c k)))
    - Ideal.ofBits .f32 0x40000000#32 * ∑ k : Fin 128, X (ix3 b r k) * Y (ix3 b c k)

/-- The same with natural-number indices. -/
def distN (X Y : Arr) (b r c : ℕ) : EReal := dist X Y (f4 b) (f8192 r) (f8192 c)

/-- The result for one batch's distance matrix: the larger of (the largest row minimum) and (the largest
    column minimum). -/
def hd (D : ℕ → ℕ → EReal) : EReal :=
  max ((range 8192).sup fun r => (range 8192).inf fun c => D r c)
      ((range 8192).sup fun c => (range 8192).inf fun r => D r c)

/-- Column c's minimum over the rows the sweep has seen when it has finished tile p (row tile p / 8,
    column tile p % 8): the rows of the earlier row tiles, and those of row tile p / 8 too when the
    column's tile is not after p % 8. -/
def colMin (D : ℕ → ℕ → EReal) (p c : ℕ) : EReal :=
  (range ((if c / 1024 ≤ p % 8 then p / 8 + 1 else p / 8) * 1024)).inf fun r => D r c

/-- Row r's minimum over the columns of the column tiles 0 … k. -/
def rowMin (D : ℕ → ℕ → EReal) (k r : ℕ) : EReal := (range ((k + 1) * 1024)).inf (D r)

/-- The maximum, over the rows of the row tiles finished when the sweep has finished tile p, of the row's
    minimum over all columns. -/
def rowMax (D : ℕ → ℕ → EReal) (p : ℕ) : EReal :=
  (range ((p + 1) / 8 * 1024)).sup fun r => (range 8192).inf (D r)

/-- What both programs return: for each batch, the function hd of that batch's distance matrix. -/
def result (X Y : Arr) : FVec Ideal ⟨1, ![4]⟩ .f32 := fun i => hd (distN X Y (i 0).val)

end Cert.Hausdorff

end
-- ==== Proof.Sweep.lean ====
import proofs.«110477_j42082089566512_1_alg».proof.Proof.Spec

/-!
# Arithmetic of the sweep's running minima and maxima

Minima and maxima over ranges of natural numbers split along a sum of bounds. Each step of the sweep
extends one range bound by 1024 (or leaves it unchanged), so each step equation is that splitting applied
after a computation on the bounds.
-/

noncomputable section

namespace Cert.Hausdorff

open Finset

/-- A minimum over all of Fin n is the minimum over range n of any function agreeing on values. -/
theorem inf_univ_eq_range {n : ℕ} (f : Fin n → EReal) (g : ℕ → EReal) (h : ∀ j : Fin n, f j = g j.val) :
    (univ : Finset (Fin n)).inf f = (range n).inf g := by
  apply le_antisymm
  · apply Finset.le_inf
    intro i hi
    have hi' : i < n := Finset.mem_range.mp hi
    have key : (univ : Finset (Fin n)).inf f ≤ f ⟨i, hi'⟩ := Finset.inf_le (Finset.mem_univ _)
    rw [h] at key
    exact key
  · apply Finset.le_inf
    intro j _
    rw [h]
    exact Finset.inf_le (Finset.mem_range.mpr j.isLt)

/-- A maximum over all of Fin n is the maximum over range n of any function agreeing on values. -/
theorem sup_univ_eq_range {n : ℕ} (f : Fin n → EReal) (g : ℕ → EReal) (h : ∀ j : Fin n, f j = g j.val) :
    (univ : Finset (Fin n)).sup f = (range n).sup g := by
  apply le_antisymm
  · apply Finset.sup_le
    intro j _
    rw [h]
    exact Finset.le_sup (f := g) (Finset.mem_range.mpr j.isLt)
  · apply Finset.sup_le
    intro i hi
    have hi' : i < n := Finset.mem_range.mp hi
    have key : f ⟨i, hi'⟩ ≤ (univ : Finset (Fin n)).sup f := Finset.le_sup (Finset.mem_univ _)
    rw [h] at key
    exact key

/-- The minimum over range (a + b) is the smaller of the minimum over range a and the minimum of the
    shifted function over range b. -/
theorem inf_range_add (f : ℕ → EReal) (a b : ℕ) :
    (range (a + b)).inf f = min ((range a).inf f) ((range b).inf fun i => f (a + i)) := by
  induction b with
  | zero =>
    rw [Nat.add_zero, Finset.range_zero, Finset.inf_empty]
    exact (min_eq_left le_top).symm
  | succ b ih =>
    rw [← Nat.add_assoc, Finset.range_add_one, Finset.inf_insert, ih, Finset.range_add_one, Finset.inf_insert]
    exact min_left_comm _ _ _

/-- The maximum over range (a + b) is the larger of the maximum over range a and the maximum of the
    shifted function over range b. -/
theorem sup_range_add (f : ℕ → EReal) (a b : ℕ) :
    (range (a + b)).sup f = max ((range a).sup f) ((range b).sup fun i => f (a + i)) := by
  induction b with
  | zero =>
    rw [Nat.add_zero, Finset.range_zero, Finset.sup_empty]
    exact (max_eq_left bot_le).symm
  | succ b ih =>
    rw [← Nat.add_assoc, Finset.range_add_one, Finset.sup_insert, ih, Finset.range_add_one, Finset.sup_insert]
    exact max_left_comm _ _ _

namespace SweepAux

/-- Equal bounds give equal minima. -/
theorem inf_range_congr (f : ℕ → EReal) {m n : ℕ} (e : m = n) : (range m).inf f = (range n).inf f := by
  rw [e]

/-- Equal bounds give equal maxima. -/
theorem sup_range_congr (f : ℕ → EReal) {m n : ℕ} (e : m = n) : (range m).sup f = (range n).sup f := by
  rw [e]

/-- A bound extended by 1024: the minimum splits off the last 1024 terms. -/
theorem inf_range_step (f : ℕ → EReal) {m n : ℕ} (e : m = n + 1024) :
    (range m).inf f = min ((range n).inf f) ((range 1024).inf fun i => f (n + i)) :=
  (inf_range_congr f e).trans (inf_range_add f n 1024)

/-- A bound extended by 1024: the maximum splits off the last 1024 terms. -/
theorem sup_range_step (f : ℕ → EReal) {m n : ℕ} (e : m = n + 1024) :
    (range m).sup f = max ((range n).sup f) ((range 1024).sup fun i => f (n + i)) :=
  (sup_range_congr f e).trans (sup_range_add f n 1024)

/-- The minimum over the empty range is the top element. -/
theorem inf_range_zero (f : ℕ → EReal) {m : ℕ} (e : m = 0) : (range m).inf f = ⊤ := by
  rw [e, Finset.range_zero, Finset.inf_empty]

/-- The maximum over the empty range is the bottom element. -/
theorem sup_range_zero (f : ℕ → EReal) {m : ℕ} (e : m = 0) : (range m).sup f = ⊥ := by
  rw [e, Finset.range_zero, Finset.sup_empty]

/-- The bound of the column minimum at step p. -/
def colBound (p c : ℕ) : ℕ := (if c / 1024 ≤ p % 8 then p / 8 + 1 else p / 8) * 1024

theorem colMin_eq (D : ℕ → ℕ → EReal) (p c : ℕ) :
    colMin D p c = (range (colBound p c)).inf fun r => D r c := rfl

theorem colBound_zero_in (c : ℕ) (h : c / 1024 = 0) : colBound 0 c = 0 + 1024 := by
  unfold colBound
  split_ifs with h1 <;> omega

theorem colBound_zero_out (c : ℕ) (h : c / 1024 ≠ 0) : colBound 0 c = 0 := by
  unfold colBound
  split_ifs with h1 <;> omega

theorem colBound_succ_in (p c : ℕ) (h : c / 1024 = (p + 1) % 8) :
    colBound (p + 1) c = colBound p c + 1024 ∧ colBound p c = (p + 1) / 8 * 1024 := by
  unfold colBound
  split_ifs with h1 h2 h2 <;> omega

theorem colBound_succ_out (p c : ℕ) (hc : c < 8192) (h : c / 1024 ≠ (p + 1) % 8) :
    colBound (p + 1) c = colBound p c := by
  unfold colBound
  split_ifs with h1 h2 h2 <;> omega

theorem colBound_last (c : ℕ) (hc : c < 8192) : colBound 63 c = 8192 := by
  unfold colBound
  split_ifs with h1 <;> omega

end SweepAux

open SweepAux

/-! ## The row minimum over the column tiles seen so far -/

theorem rowMin_zero (D : ℕ → ℕ → EReal) (r : ℕ) : rowMin D 0 r = min ⊤ ((range 1024).inf fun j => D r j) := by
  have e : (0 + 1) * 1024 = 0 + 1024 := by omega
  refine (inf_range_step (D r) e).trans ?_
  rw [Finset.range_zero, Finset.inf_empty]
  simp only [Nat.zero_add]

theorem rowMin_succ (D : ℕ → ℕ → EReal) (k r : ℕ) :
    rowMin D (k + 1) r = min (rowMin D k r) ((range 1024).inf fun j => D r ((k + 1) * 1024 + j)) := by
  have e : (k + 1 + 1) * 1024 = (k + 1) * 1024 + 1024 := by omega
  exact inf_range_step (D r) e

theorem rowMin_seven (D : ℕ → ℕ → EReal) (r : ℕ) : rowMin D 7 r = (range 8192).inf (D r) := by
  have e : (7 + 1) * 1024 = 8192 := by omega
  exact inf_range_congr (D r) e

/-! ## The column minimum over the rows seen so far -/

theorem colMin_zero_in (D : ℕ → ℕ → EReal) (c : ℕ) (h : c / 1024 = 0) :
    colMin D 0 c = min ⊤ ((range 1024).inf fun i => D i c) := by
  rw [colMin_eq]
  refine (inf_range_step (fun r => D r c) (colBound_zero_in c h)).trans ?_
  rw [Finset.range_zero, Finset.inf_empty]
  simp only [Nat.zero_add]

theorem colMin_zero_out (D : ℕ → ℕ → EReal) (c : ℕ) (h : c / 1024 ≠ 0) : colMin D 0 c = ⊤ := by
  rw [colMin_eq]
  exact inf_range_zero _ (colBound_zero_out c h)

theorem colMin_succ_in (D : ℕ → ℕ → EReal) (p c : ℕ) (h : c / 1024 = (p + 1) % 8) :
    colMin D (p + 1) c = min (colMin D p c) ((range 1024).inf fun i => D ((p + 1) / 8 * 1024 + i) c) := by
  obtain ⟨e1, e2⟩ := colBound_succ_in p c h
  rw [colMin_eq, colMin_eq]
  refine (inf_range_step (fun r => D r c) e1).trans ?_
  rw [e2]

theorem colMin_succ_out (D : ℕ → ℕ → EReal) (p c : ℕ) (hc : c < 8192) (h : c / 1024 ≠ (p + 1) % 8) :
    colMin D (p + 1) c = colMin D p c := by
  rw [colMin_eq, colMin_eq]
  exact inf_range_congr _ (colBound_succ_out p c hc h)

theorem colMin_last (D : ℕ → ℕ → EReal) (c : ℕ) (hc : c < 8192) :
    colMin D 63 c = (range 8192).inf fun r => D r c := by
  rw [colMin_eq]
  exact inf_range_congr _ (colBound_last c hc)

/-! ## The maximum of the finished rows' minima -/

theorem rowMax_zero (D : ℕ → ℕ → EReal) : rowMax D 0 = ⊥ := by
  have e : (0 + 1) / 8 * 1024 = 0 := by omega
  exact sup_range_zero _ e

theorem rowMax_succ_of_ne (D : ℕ → ℕ → EReal) (p : ℕ) (h : (p + 1) % 8 ≠ 7) : rowMax D (p + 1) = rowMax D p := by
  have e : (p + 1 + 1) / 8 * 1024 = (p + 1) / 8 * 1024 := by omega
  exact sup_range_congr _ e

theorem rowMax_succ_of_eq (D : ℕ → ℕ → EReal) (p : ℕ) (h : (p + 1) % 8 = 7) :
    rowMax D (p + 1) = max (rowMax D p) ((range 1024).sup fun i => (range 8192).inf (D ((p + 1) / 8 * 1024 + i))) := by
  have e : (p + 1 + 1) / 8 * 1024 = (p + 1) / 8 * 1024 + 1024 := by omega
  exact sup_range_step (fun r => (range 8192).inf (D r)) e

theorem rowMax_last (D : ℕ → ℕ → EReal) : rowMax D 63 = (range 8192).sup fun r => (range 8192).inf (D r) := by
  have e : (63 + 1) / 8 * 1024 = 8192 := by omega
  exact sup_range_congr _ e

/-! ## The end of the sweep -/

theorem hd_of_last (D : ℕ → ℕ → EReal) :
    max (rowMax D 63) ((range 8192).sup fun c => colMin D 63 c) = hd D := by
  have e : ((range 8192).sup fun c => colMin D 63 c) = (range 8192).sup fun c => (range 8192).inf fun r => D r c :=
    Finset.sup_congr rfl (fun c hc => colMin_last D c (Finset.mem_range.mp hc))
  rw [rowMax_last, e]
  rfl

end Cert.Hausdorff

end
-- ==== Proof.Pieces.lean ====
/-
  What each control case of the kernel body leaves in its three scratch buffers and in the output block, as the body's
  pure payloads of the values it loaded — at any float instance. The column-minimum row of 8192 entries is updated one
  slab of 1024 columns at a time: a column inside the point's slab reads the update, a column outside it what was there.
-/
import proofs.«110477_j42082089566512_1_alg».proof.Proof.Gen.KernelIdeal.Frame
import Idealize.ShloMosaic.Lib.Pipeline.Value
import Idealize.ShloMosaic.Lib.Tactic
import Idealize.ShloMosaic.Lib.ValueIdx
import Idealize.ShloMosaic.Lib.WritesUnit

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1x8192 .f32) (harg6 : arg6.IsWhole) (arg7 : Memref sig .tc .vmem S1024x1 .f32) (harg7 : arg7.IsWhole) (arg8 : Memref sig .tc .vmem S1x1 .f32) (harg8 : arg8.IsWhole)
variable (x0 : Vec F S1x1024x128 .f32) (x1 : Vec F S1x1024x128 .f32) (xs0 : Vec F S1x8192 .f32) (xs1 : Vec F S1024x1 .f32) (xs2 : Vec F S1x1 .f32)

/-! ## Stores into a row of 8192 columns, one slab of 1024 columns at a time -/

/-- One unit-stride store of a [1, 1024] slab at column offset o into a [1, 8192] row, newest in the list: a column
    inside the slab reads the slab's payload at the column's position in it. -/
theorem slab_in {Val : EltTy → Type} (v : View sig .tc .vmem S1x8192 .f32) (f : v.ty.Contents Val) {off : Fin 2 → ℕ}
    (inb : ∀ a, off a + (![1, 1024] : Fin 2 → ℕ) a ≤ S1x8192.size a)
    (w : (Rect.unit (s := S1x8192) off ![1, 1024] inb).shape.Idx → Val .f32) (L : List (View.Piece Val S1x8192 .f32))
    (o : ℕ) (hoff : off = ![0, o]) (j : Fin 1024) (cc : Fin 8192) (h : cc.val = o + j.val) :
    v.read Val (v.writes Val f ((⟨Rect.unit off ![1, 1024] inb, w⟩ : View.Piece Val S1x8192 .f32) :: L)) (ValueIdx.ix2 (0 : Fin 1) cc)
      = w (ValueIdx.ix2 (0 : Fin 1) j) :=
  View.read_writes_cons_unit_of_mem v f inb w L (ValueIdx.ix2 (0 : Fin 1) cc) (ValueIdx.ix2 (0 : Fin 1) j) hoff (fun a => by
    match a with
    | ⟨0, _⟩ => rfl
    | ⟨1, _⟩ => exact h)

/-- A column outside the slab reads what the earlier stores left. -/
theorem slab_out {Val : EltTy → Type} (v : View sig .tc .vmem S1x8192 .f32) (f : v.ty.Contents Val) {off : Fin 2 → ℕ}
    (inb : ∀ a, off a + (![1, 1024] : Fin 2 → ℕ) a ≤ S1x8192.size a)
    (w : (Rect.unit (s := S1x8192) off ![1, 1024] inb).shape.Idx → Val .f32) (L : List (View.Piece Val S1x8192 .f32))
    (o : ℕ) (hoff : off = ![0, o]) (cc : Fin 8192) (h : cc.val < o ∨ o + 1024 ≤ cc.val) :
    v.read Val (v.writes Val f ((⟨Rect.unit off ![1, 1024] inb, w⟩ : View.Piece Val S1x8192 .f32) :: L)) (ValueIdx.ix2 (0 : Fin 1) cc)
      = v.read Val (v.writes Val f L) (ValueIdx.ix2 (0 : Fin 1) cc) :=
  View.read_writes_cons_unit_of_not_mem v f inb w L (ValueIdx.ix2 (0 : Fin 1) cc) hoff (1 : Fin 2) h

/-- A load of the slab reads the row at the slab's columns. -/
theorem ld_slab {Val : EltTy → Type} (X : S1x8192.Idx → Val .f32) {off : Fin 2 → ℕ}
    (inb : ∀ a, off a + (![1, 1024] : Fin 2 → ℕ) a ≤ S1x8192.size a) (o : ℕ) (hoff : off = ![0, o]) (j : Fin 1024) (cc : Fin 8192)
    (h : cc.val = o + j.val) :
    View.ld X (Rect.unit (s := S1x8192) off ![1, 1024] inb) (ValueIdx.ix2 (0 : Fin 1) j) = X (ValueIdx.ix2 (0 : Fin 1) cc) := by
  subst hoff
  show X ((Rect.unit (s := S1x8192) ![0, o] ![1, 1024] inb).emb (ValueIdx.ix2 (0 : Fin 1) j)) = _
  refine congrArg X (funext fun a => Fin.ext ?_)
  match a with
  | ⟨0, _⟩ => rfl
  | ⟨1, _⟩ => show o + 1 * j.val = cc.val; omega

/-- One store through the whole-shape rectangle at zero offsets, read back, is its payload. -/
theorem read_one_whole {Val : EltTy → Type} {κ : Kind} {sp : Space} {S : Shape} {e : EltTy} (v : View sig κ sp S e)
    (f : v.ty.Contents Val) {off : Fin S.rank → ℕ} (h : off = fun _ => 0) (inb : ∀ a, off a + S.size a ≤ S.size a)
    (w : S.Idx → Val e) : v.read Val (v.writes Val f [(⟨Rect.unit off S.size inb, w⟩ : View.Piece Val S e)]) = w := by
  subst h
  exact View.read_writes_whole v f w

/-! ## The first point of a batch: every scratch buffer is initialised, then updated -/

section CaseA
variable (hc0 : cond0_0 i) (hc1 : cond0_1 i) (hc2 : ¬cond0_2 i) (hc3 : ¬cond0_3 i)

/-- The running maximum of finished rows starts at its initial splat. -/
theorem sA2 : sout0_A_2 c i arg3 harg3 arg4 harg4 arg5 harg5 arg6 harg6 arg7 harg7 arg8 harg8 hc0 hc1 hc2 hc3 x0 x1 = k0_pay5 := by
  unfold sout0_A_2
  rw [View.read_writes_eq_canon _ _ _ (scover0_A_2 c i arg3 harg3 arg4 harg4 arg5 harg5 arg6 harg6 arg7 harg7 arg8 harg8 hc0 hc1 hc2 hc3 x0 x1)]
  unfold kernelRun0_A
  dsimp only
  rw [View.canon_unit_zero hz2]

/-- The row minima: the update of the initial splat by the tile. -/
theorem sA1 : sout0_A_1 c i arg3 harg3 arg4 harg4 arg5 harg5 arg6 harg6 arg7 harg7 arg8 harg8 hc0 hc1 hc2 hc3 x0 x1 = k0_pay8 x0 x1 k0_pay6 := by
  unfold sout0_A_1
  rw [View.read_writes_eq_canon _ _ _ (scover0_A_1 c i arg3 harg3 arg4 harg4 arg5 harg5 arg6 harg6 arg7 harg7 arg8 harg8 hc0 hc1 hc2 hc3 x0 x1)]
  unfold kernelRun0_A
  dsimp only
  sl_unfold_run_names
  rw [View.canon_cons_unit_zero (S := S1024x1) hz2, View.readCov_unit_zero (S := S1024x1) _ hz2]
  simp only [View.readAt_eq_ld, harg3.read_unread, harg4.read_unread, View.ld_unit_zero (S := S1x1024x128) hz3]

/-- The column minima under the tile's columns: the update of the initial splat's slab by the tile. -/
theorem sA0_in (o : ℕ) (hoff : k0_off1 i = ![0, o]) (j : Fin 1024) (cc : Fin 8192) (h : cc.val = o + j.val) :
    sout0_A_0 c i arg3 harg3 arg4 harg4 arg5 harg5 arg6 harg6 arg7 harg7 arg8 harg8 hc0 hc1 hc2 hc3 x0 x1 (ValueIdx.ix2 (0 : Fin 1) cc)
      = k0_pay1 (k0_pay7 x0 x1) (View.ld (k0_pay4 (F := F)) (Rect.unit (s := S1x8192) (k0_off1 i) ![1, 1024] (k0_off1_inb i))) (ValueIdx.ix2 (0 : Fin 1) j) := by
  unfold sout0_A_0
  unfold kernelRun0_A
  dsimp only
  sl_unfold_run_names
  refine (slab_in VS0_0 _ _ _ _ o hoff j cc h).trans ?_
  simp only [View.readAt_eq_ld, harg3.read_unread, harg4.read_unread, View.ld_unit_zero (S := S1x1024x128) hz3,
    read_one_whole (S := S1x8192) arg6.view _ hz2]

/-- The column minima elsewhere: the initial splat. -/
theorem sA0_out (o : ℕ) (hoff : k0_off1 i = ![0, o]) (cc : Fin 8192) (h : cc.val < o ∨ o + 1024 ≤ cc.val) :
    sout0_A_0 c i arg3 harg3 arg4 harg4 arg5 harg5 arg6 harg6 arg7 harg7 arg8 harg8 hc0 hc1 hc2 hc3 x0 x1 (ValueIdx.ix2 (0 : Fin 1) cc) = k0_pay4 (F := F) (ValueIdx.ix2 (0 : Fin 1) cc) := by
  unfold sout0_A_0
  unfold kernelRun0_A
  dsimp only
  refine (slab_out VS0_0 _ _ _ _ o hoff cc h).trans ?_
  exact congrFun (read_one_whole (S := S1x8192) VS0_0 _ hz2 _ _) _

end CaseA

/-! ## A point in the middle of a row of tiles -/

section CaseB
variable (hc0 : ¬cond0_0 i) (hc1 : ¬cond0_1 i) (hc2 : ¬cond0_2 i) (hc3 : ¬cond0_3 i)

theorem sB1 : sout0_B_1 c i arg3 harg3 arg4 harg4 arg5 harg5 arg6 harg6 arg7 harg7 arg8 harg8 hc0 hc1 hc2 hc3 x0 x1 xs0 xs1 xs2 = k0_pay8 x0 x1 xs1 := by
  unfold sout0_B_1
  rw [View.read_writes_eq_canon _ _ _ (scover0_B_1 c i arg3 harg3 arg4 harg4 arg5 harg5 arg6 harg6 arg7 harg7 arg8 harg8 hc0 hc1 hc2 hc3 x0 x1 xs0 xs1 xs2)]
  unfold kernelRun0_B
  dsimp only
  sl_unfold_run_names
  rw [View.canon_unit_zero hz2]
  simp only [View.readAt_eq_ld, harg3.read_unread, harg4.read_unread, harg7.read_unread, View.ld_unit_zero (S := S1x1024x128) hz3, View.ld_unit_zero (S := S1024x1) hz2]

theorem sB0_in (o : ℕ) (hoff : k0_off1 i = ![0, o]) (j : Fin 1024) (cc : Fin 8192) (h : cc.val = o + j.val) :
    sout0_B_0 c i arg3 harg3 arg4 harg4 arg5 harg5 arg6 harg6 arg7 harg7 arg8 harg8 hc0 hc1 hc2 hc3 x0 x1 xs0 xs1 xs2 (ValueIdx.ix2 (0 : Fin 1) cc)
      = k0_pay1 (k0_pay7 x0 x1) (View.ld xs0 (Rect.unit (s := S1x8192) (k0_off1 i) ![1, 1024] (k0_off1_inb i))) (ValueIdx.ix2 (0 : Fin 1) j) := by
  unfold sout0_B_0
  unfold kernelRun0_B
  dsimp only
  sl_unfold_run_names
  refine (slab_in arg6.view _ _ _ _ o hoff j cc h).trans ?_
  simp only [View.readAt_eq_ld, harg3.read_unread, harg4.read_unread, harg6.read_unread, View.ld_unit_zero (S := S1x1024x128) hz3]

theorem sB0_out (o : ℕ) (hoff : k0_off1 i = ![0, o]) (cc : Fin 8192) (h : cc.val < o ∨ o + 1024 ≤ cc.val) :
    sout0_B_0 c i arg3 harg3 arg4 harg4 arg5 harg5 arg6 harg6 arg7 harg7 arg8 harg8 hc0 hc1 hc2 hc3 x0 x1 xs0 xs1 xs2 (ValueIdx.ix2 (0 : Fin 1) cc) = xs0 (ValueIdx.ix2 (0 : Fin 1) cc) := by
  unfold sout0_B_0
  unfold kernelRun0_B
  dsimp only
  refine (slab_out arg6.view _ _ _ _ o hoff cc h).trans ?_
  rw [View.writes_nil, harg6.read_unread]

end CaseB

/-! ## The last point of a row of tiles (not the batch's last): the finished rows' minima enter the running maximum -/

section CaseC
variable (hc0 : ¬cond0_0 i) (hc1 : ¬cond0_1 i) (hc2 : cond0_2 i) (hc3 : ¬cond0_3 i)

theorem sC1 : sout0_C_1 c i arg3 harg3 arg4 harg4 arg5 harg5 arg6 harg6 arg7 harg7 arg8 harg8 hc0 hc1 hc2 hc3 x0 x1 xs0 xs1 xs2 = k0_pay8 x0 x1 xs1 := by
  unfold sout0_C_1
  rw [View.read_writes_eq_canon _ _ _ (scover0_C_1 c i arg3 harg3 arg4 harg4 arg5 harg5 arg6 harg6 arg7 harg7 arg8 harg8 hc0 hc1 hc2 hc3 x0 x1 xs0 xs1 xs2)]
  unfold kernelRun0_C
  dsimp only
  sl_unfold_run_names
  rw [View.canon_unit_zero hz2]
  simp only [View.readAt_eq_ld, harg3.read_unread, harg4.read_unread, harg7.read_unread, View.ld_unit_zero (S := S1x1024x128) hz3, View.ld_unit_zero (S := S1024x1) hz2]

theorem sC2 : sout0_C_2 c i arg3 harg3 arg4 harg4 arg5 harg5 arg6 harg6 arg7 harg7 arg8 harg8 hc0 hc1 hc2 hc3 x0 x1 xs0 xs1 xs2 = k0_pay2 (k0_pay8 x0 x1 xs1) xs2 := by
  unfold sout0_C_2
  rw [View.read_writes_eq_canon _ _ _ (scover0_C_2 c i arg3 harg3 arg4 harg4 arg5 harg5 arg6 harg6 arg7 harg7 arg8 harg8 hc0 hc1 hc2 hc3 x0 x1 xs0 xs1 xs2)]
  unfold kernelRun0_C
  dsimp only
  sl_unfold_run_names
  rw [View.canon_unit_zero hz2, View.readCov_unit_zero (S := S1024x1) _ hz2]
  simp only [View.readAt_eq_ld, harg3.read_unread, harg4.read_unread, harg7.read_unread, harg8.read_unread, View.ld_unit_zero (S := S1x1024x128) hz3, View.ld_unit_zero (S := S1024x1) hz2, View.ld_unit_zero (S := S1x1) hz2]

theorem sC0_in (o : ℕ) (hoff : k0_off1 i = ![0, o]) (j : Fin 1024) (cc : Fin 8192) (h : cc.val = o + j.val) :
    sout0_C_0 c i arg3 harg3 arg4 harg4 arg5 harg5 arg6 harg6 arg7 harg7 arg8 harg8 hc0 hc1 hc2 hc3 x0 x1 xs0 xs1 xs2 (ValueIdx.ix2 (0 : Fin 1) cc)
      = k0_pay1 (k0_pay7 x0 x1) (View.ld xs0 (Rect.unit (s := S1x8192) (k0_off1 i) ![1, 1024] (k0_off1_inb i))) (ValueIdx.ix2 (0 : Fin 1) j) := by
  unfold sout0_C_0
  unfold kernelRun0_C
  dsimp only
  sl_unfold_run_names
  refine (slab_in arg6.view _ _ _ _ o hoff j cc h).trans ?_
  simp only [View.readAt_eq_ld, harg3.read_unread, harg4.read_unread, harg6.read_unread, View.ld_unit_zero (S := S1x1024x128) hz3]

theorem sC0_out (o : ℕ) (hoff : k0_off1 i = ![0, o]) (cc : Fin 8192) (h : cc.val < o ∨ o + 1024 ≤ cc.val) :
    sout0_C_0 c i arg3 harg3 arg4 harg4 arg5 harg5 arg6 harg6 arg7 harg7 arg8 harg8 hc0 hc1 hc2 hc3 x0 x1 xs0 xs1 xs2 (ValueIdx.ix2 (0 : Fin 1) cc) = xs0 (ValueIdx.ix2 (0 : Fin 1) cc) := by
  unfold sout0_C_0
  unfold kernelRun0_C
  dsimp only
  refine (slab_out arg6.view _ _ _ _ o hoff cc h).trans ?_
  rw [View.writes_nil, harg6.read_unread]

end CaseC

/-! ## The first point of a later row of tiles: the row minima start again -/

section CaseD
variable (hc0 : ¬cond0_0 i) (hc1 : cond0_1 i) (hc2 : ¬cond0_2 i) (hc3 : ¬cond0_3 i)

theorem sD1 : sout0_D_1 c i arg3 harg3 arg4 harg4 arg5 harg5 arg6 harg6 arg7 harg7 arg8 harg8 hc0 hc1 hc2 hc3 x0 x1 xs0 xs2 = k0_pay8 x0 x1 k0_pay6 := by
  unfold sout0_D_1
  rw [View.read_writes_eq_canon _ _ _ (scover0_D_1 c i arg3 harg3 arg4 harg4 arg5 harg5 arg6 harg6 arg7 harg7 arg8 harg8 hc0 hc1 hc2 hc3 x0 x1 xs0 xs2)]
  unfold kernelRun0_D
  dsimp only
  sl_unfold_run_names
  rw [View.canon_cons_unit_zero (S := S1024x1) hz2, View.readCov_unit_zero (S := S1024x1) _ hz2]
  simp only [View.readAt_eq_ld, harg3.read_unread, harg4.read_unread, View.ld_unit_zero (S := S1x1024x128) hz3]

theorem sD0_in (o : ℕ) (hoff : k0_off1 i = ![0, o]) (j : Fin 1024) (cc : Fin 8192) (h : cc.val = o + j.val) :
    sout0_D_0 c i arg3 harg3 arg4 harg4 arg5 harg5 arg6 harg6 arg7 harg7 arg8 harg8 hc0 hc1 hc2 hc3 x0 x1 xs0 xs2 (ValueIdx.ix2 (0 : Fin 1) cc)
      = k0_pay1 (k0_pay7 x0 x1) (View.ld xs0 (Rect.unit (s := S1x8192) (k0_off1 i) ![1, 1024] (k0_off1_inb i))) (ValueIdx.ix2 (0 : Fin 1) j) := by
  unfold sout0_D_0
  unfold kernelRun0_D
  dsimp only
  sl_unfold_run_names
  refine (slab_in arg6.view _ _ _ _ o hoff j cc h).trans ?_
  simp only [View.readAt_eq_ld, harg3.read_unread, harg4.read_unread, harg6.read_unread, View.ld_unit_zero (S := S1x1024x128) hz3]

theorem sD0_out (o : ℕ) (hoff : k0_off1 i = ![0, o]) (cc : Fin 8192) (h : cc.val < o ∨ o + 1024 ≤ cc.val) :
    sout0_D_0 c i arg3 harg3 arg4 harg4 arg5 harg5 arg6 harg6 arg7 harg7 arg8 harg8 hc0 hc1 hc2 hc3 x0 x1 xs0 xs2 (ValueIdx.ix2 (0 : Fin 1) cc) = xs0 (ValueIdx.ix2 (0 : Fin 1) cc) := by
  unfold sout0_D_0
  unfold kernelRun0_D
  dsimp only
  refine (slab_out arg6.view _ _ _ _ o hoff cc h).trans ?_
  rw [View.writes_nil, harg6.read_unread]

end CaseD

/-! ## The last point of a batch: the output block is the larger of the two maxima, splat -/

section CaseE
variable (hc0 : ¬cond0_0 i) (hc1 : ¬cond0_1 i) (hc2 : cond0_2 i) (hc3 : cond0_3 i)

theorem sE1 : sout0_E_1 c i arg3 harg3 arg4 harg4 arg5 harg5 arg6 harg6 arg7 harg7 arg8 harg8 hc0 hc1 hc2 hc3 x0 x1 xs0 xs1 xs2 = k0_pay8 x0 x1 xs1 := by
  unfold sout0_E_1
  rw [View.read_writes_eq_canon _ _ _ (scover0_E_1 c i arg3 harg3 arg4 harg4 arg5 harg5 arg6 harg6 arg7 harg7 arg8 harg8 hc0 hc1 hc2 hc3 x0 x1 xs0 xs1 xs2)]
  unfold kernelRun0_E
  dsimp only
  sl_unfold_run_names
  rw [View.canon_unit_zero hz2]
  simp only [View.readAt_eq_ld, harg3.read_unread, harg4.read_unread, harg7.read_unread, View.ld_unit_zero (S := S1x1024x128) hz3, View.ld_unit_zero (S := S1024x1) hz2]

theorem sE2 : sout0_E_2 c i arg3 harg3 arg4 harg4 arg5 harg5 arg6 harg6 arg7 harg7 arg8 harg8 hc0 hc1 hc2 hc3 x0 x1 xs0 xs1 xs2 = k0_pay2 (k0_pay8 x0 x1 xs1) xs2 := by
  unfold sout0_E_2
  rw [View.read_writes_eq_canon _ _ _ (scover0_E_2 c i arg3 harg3 arg4 harg4 arg5 harg5 arg6 harg6 arg7 harg7 arg8 harg8 hc0 hc1 hc2 hc3 x0 x1 xs0 xs1 xs2)]
  unfold kernelRun0_E
  dsimp only
  sl_unfold_run_names
  rw [View.canon_unit_zero hz2, View.readCov_unit_zero (S := S1024x1) _ hz2]
  simp only [View.readAt_eq_ld, harg3.read_unread, harg4.read_unread, harg7.read_unread, harg8.read_unread, View.ld_unit_zero (S := S1x1024x128) hz3, View.ld_unit_zero (S := S1024x1) hz2, View.ld_unit_zero (S := S1x1) hz2]

theorem sE0_in (o : ℕ) (hoff : k0_off1 i = ![0, o]) (j : Fin 1024) (cc : Fin 8192) (h : cc.val = o + j.val) :
    sout0_E_0 c i arg3 harg3 arg4 harg4 arg5 harg5 arg6 harg6 arg7 harg7 arg8 harg8 hc0 hc1 hc2 hc3 x0 x1 xs0 xs1 xs2 (ValueIdx.ix2 (0 : Fin 1) cc)
      = k0_pay1 (k0_pay7 x0 x1) (View.ld xs0 (Rect.unit (s := S1x8192) (k0_off1 i) ![1, 1024] (k0_off1_inb i))) (ValueIdx.ix2 (0 : Fin 1) j) := by
  unfold sout0_E_0
  unfold kernelRun0_E
  dsimp only
  sl_unfold_run_names
  refine (slab_in arg6.view _ _ _ _ o hoff j cc h).trans ?_
  simp only [View.readAt_eq_ld, harg3.read_unread, harg4.read_unread, harg6.read_unread, View.ld_unit_zero (S := S1x1024x128) hz3]

theorem sE0_out (o : ℕ) (hoff : k0_off1 i = ![0, o]) (cc : Fin 8192) (h : cc.val < o ∨ o + 1024 ≤ cc.val) :
    sout0_E_0 c i arg3 harg3 arg4 harg4 arg5 harg5 arg6 harg6 arg7 harg7 arg8 harg8 hc0 hc1 hc2 hc3 x0 x1 xs0 xs1 xs2 (ValueIdx.ix2 (0 : Fin 1) cc) = xs0 (ValueIdx.ix2 (0 : Fin 1) cc) := by
  unfold sout0_E_0
  unfold kernelRun0_E
  dsimp only
  refine (slab_out arg6.view _ _ _ _ o hoff cc h).trans ?_
  rw [View.writes_nil, harg6.read_unread]

/-- The output block: the last payload of the column minima just stored and the running maximum just updated. -/
theorem oE : out0_E_2 c i arg3 harg3 arg4 harg4 arg5 harg5 arg6 harg6 arg7 harg7 arg8 harg8 hc0 hc1 hc2 hc3 x0 x1 xs0 xs1 xs2
      = k0_pay3 (sout0_E_0 c i arg3 harg3 arg4 harg4 arg5 harg5 arg6 harg6 arg7 harg7 arg8 harg8 hc0 hc1 hc2 hc3 x0 x1 xs0 xs1 xs2) (k0_pay2 (k0_pay8 x0 x1 xs1) xs2) := by
  unfold out0_E_2 sout0_E_0
  rw [View.read_writes_eq_canon _ _ _ (cover0_E_2 c i arg3 harg3 arg4 harg4 arg5 harg5 arg6 harg6 arg7 harg7 arg8 harg8 hc0 hc1 hc2 hc3 x0 x1 xs0 xs1 xs2)]
  unfold kernelRun0_E
  dsimp only
  sl_unfold_run_names
  rw [View.canon_unit_zero hz3, View.readCov_unit_zero (S := S1x1) _ hz2, View.readCov_unit_zero (S := S1024x1) _ hz2]
  simp only [View.readAt_eq_ld, harg3.read_unread, harg4.read_unread, harg6.read_unread, harg7.read_unread, harg8.read_unread,
    View.ld_unit_zero (S := S1x1024x128) hz3, View.ld_unit_zero (S := S1024x1) hz2, View.ld_unit_zero (S := S1x1) hz2,
    View.ld_unit_zero (S := S1x8192) hz2]

end CaseE

end Cert.KernelIdeal.Pieces
end
-- ==== Proof.LibKeepdims.lean ====
/-
  Layout operations of a keep-dimensions reduction read at an index, over literal matrix shapes: a vector
  cast to a column, a column broadcast along a second axis, and the sum along either axis of a matrix as a
  sum over a finite index type.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail
open Idealize.ShloMosaic Idealize.ShloMosaic.ValueIdx

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The sum along the second axis of a matrix, read at row k: the sum of the row's entries. -/
theorem sumAxis1_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (k : Fin a) :
    multiReduction .add [1] ⟨1, ![a]⟩ src acc h hφ hacc (ix1 k) = ∑ c : Fin b, src (ix2 k c) :=
  (Ideal.multiReduction_add_single src acc h hφ hacc (ix1 k)).trans
    (Finset.sum_congr rfl fun c _ => congrArg src (funext fun ax => Fin.ext (by
      match ax with
      | ⟨0, _⟩ => rfl
      | ⟨1, _⟩ => rfl)))

/-- The sum along the first axis of a matrix, read at column c: the sum of the column's entries. -/
theorem sumAxis0_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (funext fun ax => Fin.ext (by
      match ax with
      | ⟨0, _⟩ => rfl
      | ⟨1, _⟩ => rfl)))

end Sums

end Cert.KernelIdeal.Tail
end
-- ==== Proof.PayDist.lean ====
/-
  One entry of the tile of squared distances the kernel computes from a block x of the first point set and a
  block y of the second, at the ideal values: at (i, j) it is the squared norm of row i of x plus the squared
  norm of row j of y minus twice the inner product of the two rows. The squared norms are lane sums of the
  entrywise squares kept as a column (and, for y, transposed to a row), each broadcast over the tile; the
  inner products are the matrix product of x with the transpose of y accumulated into zero, the narrowing of
  its operands being the identity on extended reals.
-/
import proofs.«110477_j42082089566512_1_alg».proof.Proof.Gen.KernelIdeal.Skeleton
import proofs.«110477_j42082089566512_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws
noncomputable section

namespace Cert.Hausdorff.DistAux
open Idealize.ShloMosaic Idealize.ShloMosaic.ValueIdx Cert.KernelIdeal Cert.KernelIdeal.Gen

/-- The squared norms of a matrix's rows, as a column: the sum along the second axis of the entrywise
    square, cast to a column, reads at (i, u) the sum over k of the square of the entry (i, k). -/
theorem sqCol_apply (a : FVec Ideal S1024x128 .f32) (hr : S1024x128.Reduces [1] S1024) (hφ : FKind.Formats .f32)
    (hacc : (0x00000000#32 : BitVec (FTy.bits .f32)) = FKind.add.neutral .f32 hφ) (hc : S1024.ShapeCasts S1024x1)
    (i : Fin 1024) (u : Fin 1) :
    shapeCast S1024x1 (multiReduction .add [1] S1024 (mulf a a) 0x00000000#32 hr hφ hacc) hc (ix2 i u)
      = ∑ k : Fin 128, a (ix2 i k) * a (ix2 i k) :=
  (Tail.shapeCast_a_a1_apply _ hc i u).trans
    ((Tail.sumAxis1_apply (mulf a a) _ hr hφ hacc i).trans
      (Finset.sum_congr rfl fun k _ => mulf_apply a a (ix2 i k)))

/-- The same column transposed to a row reads, at (u, j), the squared norm of row j. -/
theorem sqRow_apply (b : FVec Ideal S1024x128 .f32) (hr : S1024x128.Reduces [1] S1024) (hφ : FKind.Formats .f32)
    (hacc : (0x00000000#32 : BitVec (FTy.bits .f32)) = FKind.add.neutral .f32 hφ) (hc : S1024.ShapeCasts S1024x1)
    (ht : S1024x1.Transposes [1, 0] S1x1024) (u : Fin 1) (j : Fin 1024) :
    transpose S1x1024 [1, 0] (shapeCast S1024x1 (multiReduction .add [1] S1024 (mulf b b) 0x00000000#32 hr hφ hacc) hc) ht (ix2 u j)
      = ∑ k : Fin 128, b (ix2 j k) * b (ix2 j k) :=
  (transpose_ix2_apply _ ht u j).trans (sqCol_apply b hr hφ hacc hc j u)

section Gram
variable [Cert.KernelIdeal.Facts]

/-- The left operand's index of the product: its row is the output's row. -/
theorem gram_lhs_0 (o : S1024x1024.Idx) (q : dot_S1024x128_S1024x128_S1024x1024_1_1_0_0_n_n.contr.Idx) :
    (dot_S1024x128_S1024x128_S1024x1024_1_1_0_0_n_n.lhsIdx o q 0).val = (o 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- Its column is the contraction position. -/
theorem gram_lhs_1 (o : S1024x1024.Idx) (q : dot_S1024x128_S1024x128_S1024x1024_1_1_0_0_n_n.contr.Idx) :
    (dot_S1024x128_S1024x128_S1024x1024_1_1_0_0_n_n.lhsIdx o q 1).val = (q ⟨0, by decide⟩).val :=
  dot_S1024x128_S1024x128_S1024x1024_1_1_0_0_n_n.lhsIdx_val_of_single rfl o q
/-- The right operand's index of the product: its row is the output's column. -/
theorem gram_rhs_0 (o : S1024x1024.Idx) (q : dot_S1024x128_S1024x128_S1024x1024_1_1_0_0_n_n.contr.Idx) :
    (dot_S1024x128_S1024x128_S1024x1024_1_1_0_0_n_n.rhsIdx o q 0).val = (o 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- Its column is the contraction position. -/
theorem gram_rhs_1 (o : S1024x1024.Idx) (q : dot_S1024x128_S1024x128_S1024x1024_1_1_0_0_n_n.contr.Idx) :
    (dot_S1024x128_S1024x128_S1024x1024_1_1_0_0_n_n.rhsIdx o q 1).val = (q ⟨0, by decide⟩).val :=
  dot_S1024x128_S1024x128_S1024x1024_1_1_0_0_n_n.rhsIdx_val_of_single rfl o q

/-- The product of a matrix with the transpose of another, accumulated into zero, reads at (i, j) the sum
    over k of the first at (i, k) times the second at (j, k). -/
theorem gram_apply {φ₁ φ₂ : FTy} (a : FVec Ideal S1024x128 φ₁) (b : FVec Ideal S1024x128 φ₂) (i j : Fin 1024) :
    matmul dot_S1024x128_S1024x128_S1024x1024_1_1_0_0_n_n none a b (constant (F := Ideal) S1024x1024 .f32 0x00000000#32) (ix2 i j)
      = ∑ k : Fin 128, a (ix2 i k) * b (ix2 j k) := by
  refine (Ideal.matmul_constant_zero_apply dot_S1024x128_S1024x128_S1024x1024_1_1_0_0_n_n none a b (ix2 i j)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 i j) ((contrEquiv1 dot_S1024x128_S1024x128_S1024x1024_1_1_0_0_n_n 128 rfl rfl).symm k) = ix2 i k := funext fun ax => Fin.ext (by
    match ax with
    | ⟨0, _⟩ => exact gram_lhs_0 _ _
    | ⟨1, _⟩ => exact (gram_lhs_1 _ _).trans hk)
  have er : dot_S1024x128_S1024x128_S1024x1024_1_1_0_0_n_n.rhsIdx (ix2 i j) ((contrEquiv1 dot_S1024x128_S1024x128_S1024x1024_1_1_0_0_n_n 128 rfl rfl).symm k) = ix2 j k := funext fun ax => Fin.ext (by
    match ax with
    | ⟨0, _⟩ => exact gram_rhs_0 _ _
    | ⟨1, _⟩ => exact (gram_rhs_1 _ _).trans hk)
  rw [el, er]

end Gram

end Cert.Hausdorff.DistAux

namespace Cert.Hausdorff
open Idealize.ShloMosaic Idealize.ShloMosaic.ValueIdx Cert.KernelIdeal Cert.KernelIdeal.Gen

/-- One entry of the kernel's tile of squared distances: at (i, j), the squared norm of row i of the first
    block plus the squared norm of row j of the second, minus twice their inner product. -/
theorem pay7_apply [Cert.KernelIdeal.Facts] (x y : Vec Ideal Cert.KernelIdeal.S1x1024x128 .f32) (i j : Fin 1024) :
    Cert.KernelIdeal.Gen.k0_pay7 (F := Ideal) x y (ix2 i j)
      = ((∑ k : Fin 128, x (ix3 (0 : Fin 1) i k) * x (ix3 (0 : Fin 1) i k))
          + (∑ k : Fin 128, y (ix3 (0 : Fin 1) j k) * y (ix3 (0 : Fin 1) j k)))
        - Ideal.ofBits .f32 0x40000000#32 * ∑ k : Fin 128, x (ix3 (0 : Fin 1) i k) * y (ix3 (0 : Fin 1) j k) := by
  unfold Gen.k0_pay7
  refine (subf_apply _ _ (ix2 i j)).trans ?_
  refine congrArg₂ (· - ·) ((addf_apply _ _ (ix2 i j)).trans (congrArg₂ (· + ·) ?_ ?_))
    ((mulf_apply _ _ (ix2 i j)).trans (congrArg₂ (· * ·) ?_ ?_))
  · refine (Cert.KernelIdeal.Tail.broadcastTo_a1_ab_apply _ _ i j).trans ?_
    refine (DistAux.sqCol_apply _ _ _ _ _ i 0).trans ?_
    exact Finset.sum_congr rfl fun k _ =>
      congrArg₂ (· * ·) (shapeCast_1ab_ab_apply x _ i k) (shapeCast_1ab_ab_apply x _ i k)
  · refine (broadcastTo_1b_ab_apply _ _ i j).trans ?_
    refine (DistAux.sqRow_apply _ _ _ _ _ _ 0 j).trans ?_
    exact Finset.sum_congr rfl fun k _ =>
      congrArg₂ (· * ·) (shapeCast_1ab_ab_apply y _ j k) (shapeCast_1ab_ab_apply y _ j k)
  · rfl
  · refine (DistAux.gram_apply _ _ i j).trans ?_
    exact Finset.sum_congr rfl fun k _ =>
      congrArg₂ (· * ·) ((truncf_apply (φ := .f32) (ψ := .bf16) _ _ (ix2 i k)).trans (shapeCast_1ab_ab_apply x _ i k))
        ((truncf_apply (φ := .f32) (ψ := .bf16) _ _ (ix2 j k)).trans (shapeCast_1ab_ab_apply y _ j k))

end Cert.Hausdorff
end
-- ==== Proof.PayFold.lean ====
import proofs.«110477_j42082089566512_1_alg».proof.Proof.Gen.KernelIdeal.Skeleton
import proofs.«110477_j42082089566512_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws
noncomputable section

namespace Cert.Hausdorff
open Finset Idealize.ShloMosaic Idealize.ShloMosaic.ValueIdx Cert.KernelIdeal Cert.KernelIdeal.Gen

namespace FoldAux

/-- The word of +∞ denotes the top extended real. -/
theorem ofBits_posInf : Ideal.ofBits .f32 0x7F800000#32 = (⊤ : EReal) := by
  simp [Ideal.ofBits, Ideal.ieee]

/-- The word of −∞ denotes the bottom extended real. -/
theorem ofBits_negInf : Ideal.ofBits .f32 0xFF800000#32 = (⊥ : EReal) := by
  simp [Ideal.ofBits, Ideal.ieee]

/-- The fold of min from the top element over a finite index type is the infimum. -/
theorem fold_min_top {n : ℕ} (f : Fin n → EReal) :
    (univ : Finset (Fin n)).fold min (⊤ : EReal) f = (univ : Finset (Fin n)).inf f := rfl

/-- The fold of max from the bottom element over a finite index type is the supremum. -/
theorem fold_max_bot {n : ℕ} (f : Fin n → EReal) :
    (univ : Finset (Fin n)).fold max (⊥ : EReal) f = (univ : Finset (Fin n)).sup f := rfl

/-- A minimum reduction over one axis, at the ideal values: the fold of min from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum from +∞ along the first axis of a matrix, read at column c: the infimum of the column. -/
theorem minAxis0_apply {a b : ℕ} (src : FVec Ideal ⟨2, ![a, b]⟩ .f32)
    (h : (⟨2, ![a, b]⟩ : Shape).Reduces [0] ⟨1, ![b]⟩) (hφ : FKind.Formats .f32)
    (hacc : (0x7F800000#32 : BitVec 32) = FKind.minimumf.neutral .f32 hφ) (c : Fin b) :
    multiReduction .minimumf [0] ⟨1, ![b]⟩ src 0x7F800000#32 h hφ hacc (ix1 c)
      = (univ : Finset (Fin a)).inf fun r => src (ix2 r c) := by
  refine (multiReduction_minimumf_single src 0x7F800000#32 h hφ hacc (ix1 c)).trans ?_
  refine Eq.trans ?_ (fold_min_top fun r : Fin a => src (ix2 r c))
  have hf : (src ∘ h.lift (ix1 c)) = fun r : Fin a => src (ix2 r c) :=
    funext fun r => congrArg src (funext fun ax => Fin.ext (by
      match ax with
      | ⟨0, _⟩ => rfl
      | ⟨1, _⟩ => rfl))
  have ht : (FloatOps.ofBits (F := Ideal) .f32 0x7F800000#32 : EReal) = ⊤ := ofBits_posInf
  rw [ht]
  exact congrArg (fun f => Finset.fold min (⊤ : EReal) f (univ : Finset (Fin a))) hf

/-- The minimum from +∞ along the second axis of a matrix, read at row r: the infimum of the row. -/
theorem minAxis1_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (r : Fin a) :
    multiReduction .minimumf [1] ⟨1, ![a]⟩ src 0x7F800000#32 h hφ hacc (ix1 r)
      = (univ : Finset (Fin b)).inf fun c => src (ix2 r c) := by
  refine (multiReduction_minimumf_single src 0x7F800000#32 h hφ hacc (ix1 r)).trans ?_
  refine Eq.trans ?_ (fold_min_top fun c : Fin b => src (ix2 r c))
  have hf : (src ∘ h.lift (ix1 r)) = fun c : Fin b => src (ix2 r c) :=
    funext fun c => congrArg src (funext fun ax => Fin.ext (by
      match ax with
      | ⟨0, _⟩ => rfl
      | ⟨1, _⟩ => rfl))
  have ht : (FloatOps.ofBits (F := Ideal) .f32 0x7F800000#32 : EReal) = ⊤ := ofBits_posInf
  rw [ht]
  exact congrArg (fun f => Finset.fold min (⊤ : EReal) f (univ : Finset (Fin b))) hf

/-- The maximum from −∞ along the first axis of a matrix, read at column c: the supremum of the column. -/
theorem maxAxis0_apply {a b : ℕ} (src : FVec Ideal ⟨2, ![a, b]⟩ .f32)
    (h : (⟨2, ![a, b]⟩ : Shape).Reduces [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = (univ : Finset (Fin a)).sup fun r => src (ix2 r c) := by
  refine (Ideal.multiReduction_maximumf_single src 0xFF800000#32 h hφ hacc (ix1 c)).trans ?_
  refine Eq.trans ?_ (fold_max_bot fun r : Fin a => src (ix2 r c))
  have hf : (src ∘ h.lift (ix1 c)) = fun r : Fin a => src (ix2 r c) :=
    funext fun r => congrArg src (funext fun ax => Fin.ext (by
      match ax with
      | ⟨0, _⟩ => rfl
      | ⟨1, _⟩ => rfl))
  have ht : (FloatOps.ofBits (F := Ideal) .f32 0xFF800000#32 : EReal) = ⊥ := ofBits_negInf
  rw [ht]
  exact congrArg (fun f => Finset.fold max (⊥ : EReal) f (univ : Finset (Fin a))) hf

/-- The maximum from −∞ along the second axis of a matrix, read at row r: the supremum of the row. -/
theorem maxAxis1_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (univ : Finset (Fin b)).sup fun c => src (ix2 r c) := by
  refine (Ideal.multiReduction_maximumf_single src 0xFF800000#32 h hφ hacc (ix1 r)).trans ?_
  refine Eq.trans ?_ (fold_max_bot fun c : Fin b => src (ix2 r c))
  have hf : (src ∘ h.lift (ix1 r)) = fun c : Fin b => src (ix2 r c) :=
    funext fun c => congrArg src (funext fun ax => Fin.ext (by
      match ax with
      | ⟨0, _⟩ => rfl
      | ⟨1, _⟩ => rfl))
  have ht : (FloatOps.ofBits (F := Ideal) .f32 0xFF800000#32 : EReal) = ⊥ := ofBits_negInf
  rw [ht]
  exact congrArg (fun f => Finset.fold max (⊥ : EReal) f (univ : Finset (Fin b))) hf

/-- A one-entry matrix broadcast to any matrix reads that entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end FoldAux

/-- The running column minimum: the stored value at column j is the minimum of the value held and the infimum of
    the block's column j. -/
theorem pay1_apply [Cert.KernelIdeal.Facts] (v27 : FVec Ideal Cert.KernelIdeal.S1024x1024 .f32) (v40 : Vec Ideal Cert.KernelIdeal.S1x1024 .f32) (j : Fin 1024) :
    Cert.KernelIdeal.Gen.k0_pay1 (F := Ideal) v27 v40 (ix2 (0 : Fin 1) j)
      = min (v40 (ix2 (0 : Fin 1) j)) ((univ : Finset (Fin 1024)).inf fun i => v27 (ix2 i j)) := by
  unfold Cert.KernelIdeal.Gen.k0_pay1
  refine (congrFun (shapeCast_self _ _) _).trans ?_
  refine congrArg (min (v40 (ix2 (0 : Fin 1) j))) ?_
  refine (shapeCast_a_1a_apply _ _ (0 : Fin 1) j).trans ?_
  exact FoldAux.minAxis0_apply v27 _ _ _ j

/-- The running row minimum: the carried value at row i is the minimum of the value held and the infimum of the
    block's row i. -/
theorem pay8_apply [Cert.KernelIdeal.Facts] (x y : Vec Ideal Cert.KernelIdeal.S1x1024x128 .f32) (v30 : Vec Ideal Cert.KernelIdeal.S1024x1 .f32) (i : Fin 1024) :
    Cert.KernelIdeal.Gen.k0_pay8 (F := Ideal) x y v30 (ix2 i (0 : Fin 1))
      = min (v30 (ix2 i (0 : Fin 1))) ((univ : Finset (Fin 1024)).inf fun j => Cert.KernelIdeal.Gen.k0_pay7 (F := Ideal) x y (ix2 i j)) := by
  unfold Cert.KernelIdeal.Gen.k0_pay8
  generalize Cert.KernelIdeal.Gen.k0_pay7 (F := Ideal) x y = w
  refine (congrFun (shapeCast_self _ _) _).trans ?_
  refine congrArg (min (v30 (ix2 i (0 : Fin 1)))) ?_
  refine (Cert.KernelIdeal.Tail.shapeCast_a_a1_apply _ _ i (0 : Fin 1)).trans ?_
  exact FoldAux.minAxis1_apply w _ _ _ i

/-- The maximum over the rows' minima joined with the value held. -/
theorem pay2_apply [Cert.KernelIdeal.Facts] (v54 : Vec Ideal Cert.KernelIdeal.S1024x1 .f32) (v57 : Vec Ideal Cert.KernelIdeal.S1x1 .f32) :
    Cert.KernelIdeal.Gen.k0_pay2 (F := Ideal) v54 v57 (ix2 (0 : Fin 1) (0 : Fin 1))
      = max (v57 (ix2 (0 : Fin 1) (0 : Fin 1))) ((univ : Finset (Fin 1024)).sup fun i => v54 (ix2 i (0 : Fin 1))) := by
  unfold Cert.KernelIdeal.Gen.k0_pay2
  refine (congrFun (shapeCast_self _ _) _).trans ?_
  refine congrArg (max (v57 (ix2 (0 : Fin 1) (0 : Fin 1)))) ?_
  refine (shapeCast_a_1a_apply _ _ (0 : Fin 1) (0 : Fin 1)).trans ?_
  exact FoldAux.maxAxis0_apply v54 _ _ _ (0 : Fin 1)

/-- The maximum over the columns' minima joined with the value held, splat over the output tile. -/
theorem pay3_apply [Cert.KernelIdeal.Facts] (v54 : Vec Ideal Cert.KernelIdeal.S1x8192 .f32) (v57 : Vec Ideal Cert.KernelIdeal.S1x1 .f32) (a : Fin 8) (l : Fin 128) :
    Cert.KernelIdeal.Gen.k0_pay3 (F := Ideal) v54 v57 (ix3 (0 : Fin 1) a l)
      = max (v57 (ix2 (0 : Fin 1) (0 : Fin 1))) ((univ : Finset (Fin 8192)).sup fun c => v54 (ix2 (0 : Fin 1) c)) := by
  unfold Cert.KernelIdeal.Gen.k0_pay3
  refine (shapeCast_ab_1ab_apply _ _ (0 : Fin 1) a l).trans ?_
  refine (FoldAux.broadcastTo_11_ab_apply _ _ a l).trans ?_
  refine (congrFun (shapeCast_self _ _) _).trans ?_
  refine congrArg (max (v57 (ix2 (0 : Fin 1) (0 : Fin 1)))) ?_
  refine (shapeCast_a_1a_apply _ _ (0 : Fin 1) (0 : Fin 1)).trans ?_
  exact FoldAux.maxAxis1_apply v54 _ _ _ (0 : Fin 1)

/-- The column minima start at +∞. -/
theorem pay4_apply [Cert.KernelIdeal.Facts] (c : Fin 8192) :
    Cert.KernelIdeal.Gen.k0_pay4 (F := Ideal) (ix2 (0 : Fin 1) c) = (⊤ : EReal) := by
  unfold Cert.KernelIdeal.Gen.k0_pay4
  refine (congrFun (shapeCast_self _ _) _).trans ?_
  exact FoldAux.ofBits_posInf

/-- The running maximum starts at −∞. -/
theorem pay5_apply [Cert.KernelIdeal.Facts] :
    Cert.KernelIdeal.Gen.k0_pay5 (F := Ideal) (ix2 (0 : Fin 1) (0 : Fin 1)) = (⊥ : EReal) := by
  unfold Cert.KernelIdeal.Gen.k0_pay5
  refine (congrFun (shapeCast_self _ _) _).trans ?_
  exact FoldAux.ofBits_negInf

/-- The row minima start at +∞. -/
theorem pay6_apply [Cert.KernelIdeal.Facts] (i : Fin 1024) :
    Cert.KernelIdeal.Gen.k0_pay6 (F := Ideal) (ix2 i (0 : Fin 1)) = (⊤ : EReal) := by
  unfold Cert.KernelIdeal.Gen.k0_pay6
  refine (congrFun (shapeCast_self _ _) _).trans ?_
  exact FoldAux.ofBits_posInf

end Cert.Hausdorff
end
-- ==== Proof.Steps.lean ====
/-
  One step of the sweep, read off what the kernel body leaves: given that the point's 1024 x 1024 tile of payloads is
  the tile (p / 8, p % 8) of a distance matrix D, the column-minimum row, the row-minimum column and the running
  maximum the body leaves are the sweep's quantities after tile p, provided the buffers held the sweep's quantities
  after tile p - 1 (nothing is assumed at the batch's first tile, where every buffer is initialised). At the batch's
  last tile the output block is the splat of the result.
-/
import proofs.«110477_j42082089566512_1_alg».proof.Proof.Gen.KernelIdeal.Frame
import proofs.«110477_j42082089566512_1_alg».proof.Proof.Spec
import proofs.«110477_j42082089566512_1_alg».proof.Proof.Sweep
import proofs.«110477_j42082089566512_1_alg».proof.Proof.Pieces
import proofs.«110477_j42082089566512_1_alg».proof.Proof.PayDist
import proofs.«110477_j42082089566512_1_alg».proof.Proof.PayFold
import Idealize.ShloMosaic.Lib.Pipeline.Value
import Idealize.ShloMosaic.Lib.ValueIdx

noncomputable section

open Idealize.ShloMosaic Idealize.ShloMosaic.TcCoe Idealize.SL.Sem

namespace Cert.KernelIdeal.Steps

open Cert.KernelIdeal Cert.KernelIdeal.Gen Cert.KernelIdeal.Pieces Cert.Hausdorff Idealize.ShloMosaic.ValueIdx Finset

/-- The column-minimum row holds the sweep's column minima after tile p. -/
def ColOK (D : ℕ → ℕ → EReal) (p : ℕ) (s0 : Vec Ideal S1x8192 .f32) : Prop :=
  ∀ cc : Fin 8192, s0 (ix2 (0 : Fin 1) cc) = colMin D p cc.val
/-- The row-minimum column holds, for the rows of row tile p / 8, their minima over the column tiles 0 … p % 8. -/
def RowOK (D : ℕ → ℕ → EReal) (p : ℕ) (s1 : Vec Ideal S1024x1 .f32) : Prop :=
  ∀ a : Fin 1024, s1 (ix2 a (0 : Fin 1)) = rowMin D (p % 8) (p / 8 * 1024 + a.val)
/-- The running maximum holds the maximum of the finished rows' minima after tile p. -/
def TopOK (D : ℕ → ℕ → EReal) (p : ℕ) (s2 : Vec Ideal S1x1 .f32) : Prop :=
  s2 (ix2 (0 : Fin 1) (0 : Fin 1)) = rowMax D p

section Tile

variable (x0 x1 : Vec Ideal S1x1024x128 .f32) (D : ℕ → ℕ → EReal) (p : ℕ)
variable (hT : ∀ a b : Fin 1024, k0_pay7 (F := Ideal) x0 x1 (ix2 a b) = D (p / 8 * 1024 + a.val) (p % 8 * 1024 + b.val))
include hT

/-- The row update: the old entry against the minimum of the tile's row. -/
theorem rowUpd (v30 : Vec Ideal S1024x1 .f32) (a : Fin 1024) :
    k0_pay8 (F := Ideal) x0 x1 v30 (ix2 a (0 : Fin 1))
      = min (v30 (ix2 a (0 : Fin 1))) ((range 1024).inf fun b => D (p / 8 * 1024 + a.val) (p % 8 * 1024 + b)) :=
  (pay8_apply x0 x1 v30 a).trans (congrArg (min (v30 (ix2 a (0 : Fin 1))))
    (inf_univ_eq_range _ (fun b => D (p / 8 * 1024 + a.val) (p % 8 * 1024 + b)) fun b => hT a b))

/-- The column update: the old entry against the minimum of the tile's column. -/
theorem colUpd (v40 : Vec Ideal S1x1024 .f32) (b : Fin 1024) :
    k0_pay1 (F := Ideal) (k0_pay7 (F := Ideal) x0 x1) v40 (ix2 (0 : Fin 1) b)
      = min (v40 (ix2 (0 : Fin 1) b)) ((range 1024).inf fun a => D (p / 8 * 1024 + a) (p % 8 * 1024 + b.val)) :=
  (pay1_apply (k0_pay7 (F := Ideal) x0 x1) v40 b).trans (congrArg (min (v40 (ix2 (0 : Fin 1) b)))
    (inf_univ_eq_range _ (fun a => D (p / 8 * 1024 + a) (p % 8 * 1024 + b.val)) fun a => hT a b))

/-- Rows start: from the initial splat the row-minimum column holds the minima over column tile 0. -/
theorem row_first (hp : p % 8 = 0) : RowOK D p (k0_pay8 (F := Ideal) x0 x1 (k0_pay6 (F := Ideal))) := fun a => by
  rw [rowUpd x0 x1 D p hT, pay6_apply, hp, rowMin_zero]
  refine congrArg (min ⊤) (Finset.inf_congr rfl fun b _ => ?_)
  exact congrArg (D _) (by omega)

/-- Rows go on: from the minima over column tiles 0 … k to those over 0 … k + 1. -/
theorem row_next (q : ℕ) (hq : q + 1 = p) (hp : p % 8 ≠ 0) (xs1 : Vec Ideal S1024x1 .f32) (ih : RowOK D q xs1) :
    RowOK D p (k0_pay8 (F := Ideal) x0 x1 xs1) := fun a => by
  obtain ⟨k, hk⟩ : ∃ k, p % 8 = k + 1 := ⟨p % 8 - 1, by omega⟩
  have hq8 : q % 8 = k := by omega
  have hqd : q / 8 = p / 8 := by omega
  rw [rowUpd x0 x1 D p hT, ih a, hq8, hqd, hk, rowMin_succ]

end Tile

/-- Columns go on: a buffer that is the old row with the point's slab updated by the tile holds the column minima
    after tile q + 1 when the old row held those after tile q. -/
theorem col_next (x0 x1 : Vec Ideal S1x1024x128 .f32) (D : ℕ → ℕ → EReal) (q : ℕ)
    (hT : ∀ a b : Fin 1024, k0_pay7 (F := Ideal) x0 x1 (ix2 a b) = D ((q + 1) / 8 * 1024 + a.val) ((q + 1) % 8 * 1024 + b.val))
    (s0 xs0 : Vec Ideal S1x8192 .f32) (v40 : Vec Ideal S1x1024 .f32)
    (hld : ∀ (j : Fin 1024) (cc : Fin 8192), cc.val = 1024 * ((q + 1) % 8) + j.val → v40 (ix2 (0 : Fin 1) j) = xs0 (ix2 (0 : Fin 1) cc))
    (hin : ∀ (j : Fin 1024) (cc : Fin 8192), cc.val = 1024 * ((q + 1) % 8) + j.val →
      s0 (ix2 (0 : Fin 1) cc) = k0_pay1 (F := Ideal) (k0_pay7 (F := Ideal) x0 x1) v40 (ix2 (0 : Fin 1) j))
    (hout : ∀ cc : Fin 8192, (cc.val < 1024 * ((q + 1) % 8) ∨ 1024 * ((q + 1) % 8) + 1024 ≤ cc.val) → s0 (ix2 (0 : Fin 1) cc) = xs0 (ix2 (0 : Fin 1) cc))
    (ih : ColOK D q xs0) : ColOK D (q + 1) s0 := fun cc => by
  by_cases hc : cc.val / 1024 = (q + 1) % 8
  · have hlt := cc.isLt
    have hj : cc.val = 1024 * ((q + 1) % 8) + (⟨cc.val - 1024 * ((q + 1) % 8), by omega⟩ : Fin 1024).val := by
      show cc.val = 1024 * ((q + 1) % 8) + (cc.val - 1024 * ((q + 1) % 8)); omega
    rw [hin _ cc hj, colUpd x0 x1 D (q + 1) hT, hld _ cc hj, ih cc, colMin_succ_in D q cc.val hc]
    refine congrArg (min _) (Finset.inf_congr rfl fun a _ => ?_)
    exact congrArg (D _) (by show (q + 1) % 8 * 1024 + (cc.val - 1024 * ((q + 1) % 8)) = cc.val; omega)
  · rw [hout cc (by omega), ih cc, colMin_succ_out D q cc.val cc.isLt hc]

/-- Columns start: a buffer that is the initial splat with the first slab updated by the first tile. -/
theorem col_first (x0 x1 : Vec Ideal S1x1024x128 .f32) (D : ℕ → ℕ → EReal) (p : ℕ) (hp : p = 0)
    (hT : ∀ a b : Fin 1024, k0_pay7 (F := Ideal) x0 x1 (ix2 a b) = D (p / 8 * 1024 + a.val) (p % 8 * 1024 + b.val))
    (s0 : Vec Ideal S1x8192 .f32) (v40 : Vec Ideal S1x1024 .f32)
    (hld : ∀ (j : Fin 1024) (cc : Fin 8192), cc.val = 1024 * (p % 8) + j.val → v40 (ix2 (0 : Fin 1) j) = (⊤ : EReal))
    (hin : ∀ (j : Fin 1024) (cc : Fin 8192), cc.val = 1024 * (p % 8) + j.val →
      s0 (ix2 (0 : Fin 1) cc) = k0_pay1 (F := Ideal) (k0_pay7 (F := Ideal) x0 x1) v40 (ix2 (0 : Fin 1) j))
    (hout : ∀ cc : Fin 8192, (cc.val < 1024 * (p % 8) ∨ 1024 * (p % 8) + 1024 ≤ cc.val) → s0 (ix2 (0 : Fin 1) cc) = (⊤ : EReal)) :
    ColOK D p s0 := fun cc => by
  subst hp
  by_cases hc : cc.val / 1024 = 0
  · have hlt := cc.isLt
    have hj : cc.val = 1024 * (0 % 8) + (⟨cc.val, by omega⟩ : Fin 1024).val := by
      show cc.val = 1024 * (0 % 8) + cc.val; omega
    rw [hin _ cc hj, colUpd x0 x1 D 0 hT, hld _ cc hj, colMin_zero_in D cc.val hc]
    refine congrArg (min ⊤) (Finset.inf_congr rfl fun a _ => ?_)
    exact congrArg₂ D (by omega) (by show 0 % 8 * 1024 + cc.val = cc.val; omega)
  · rw [hout cc (by omega), colMin_zero_out D cc.val hc]

/-- The running maximum is kept at a point that does not finish a row of tiles. -/
theorem top_keep (D : ℕ → ℕ → EReal) (q : ℕ) (h : (q + 1) % 8 ≠ 7) (xs2 : Vec Ideal S1x1 .f32) (ih : TopOK D q xs2) :
    TopOK D (q + 1) xs2 := by
  unfold TopOK at *
  rw [ih, rowMax_succ_of_ne D q h]

/-- The running maximum takes in the finished rows' minima at a point that finishes a row of tiles. -/
theorem top_take (D : ℕ → ℕ → EReal) (q : ℕ) (h : (q + 1) % 8 = 7) (s1 : Vec Ideal S1024x1 .f32) (xs2 : Vec Ideal S1x1 .f32)
    (hrow : RowOK D (q + 1) s1) (ih : TopOK D q xs2) : TopOK D (q + 1) (k0_pay2 (F := Ideal) s1 xs2) := by
  unfold TopOK at *
  rw [pay2_apply, ih, rowMax_succ_of_eq D q h]
  refine congrArg (max _) (sup_univ_eq_range _ (fun a => (range 8192).inf (D ((q + 1) / 8 * 1024 + a))) fun a => ?_)
  rw [hrow a, h, rowMin_seven]

/-- The first running maximum is the initial splat. -/
theorem top_first (D : ℕ → ℕ → EReal) (p : ℕ) (hp : p = 0) : TopOK D p (k0_pay5 (F := Ideal)) := by
  subst hp
  unfold TopOK
  rw [pay5_apply, rowMax_zero]

/-- The output block at the batch's last tile: every entry is the result for the batch's distance matrix. -/
theorem out_last (D : ℕ → ℕ → EReal) (s0 : Vec Ideal S1x8192 .f32) (s2 : Vec Ideal S1x1 .f32) (h0 : ColOK D 63 s0) (h2 : TopOK D 63 s2)
    (a : Fin 8) (l : Fin 128) : k0_pay3 (F := Ideal) s0 s2 (ix3 (0 : Fin 1) a l) = hd D := by
  unfold TopOK at h2
  rw [pay3_apply, h2, ← hd_of_last D]
  exact congrArg (max _) (sup_univ_eq_range _ (fun cc => colMin D 63 cc) fun cc => h0 cc)

end Cert.KernelIdeal.Steps

end
-- ==== Proof.Cases.lean ====
/-
  The five control cases of the kernel body as steps of the sweep: what each case leaves in the three scratch buffers
  (and, at a batch's last point, in the output block), given the tile the point computes and, except at a batch's
  first point, that the buffers held the sweep's quantities after the tile before.
-/
import proofs.«110477_j42082089566512_1_alg».proof.Proof.Steps

noncomputable section

open Idealize.ShloMosaic Idealize.ShloMosaic.TcCoe Idealize.SL.Sem

namespace Cert.KernelIdeal.Cases

open Cert.KernelIdeal Cert.KernelIdeal.Gen Cert.KernelIdeal.Pieces Cert.KernelIdeal.Steps Cert.Hausdorff Idealize.ShloMosaic.ValueIdx Finset

variable (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x8x128 .f32) (harg5 : arg5.IsWhole) (arg6 : Memref sig .tc .vmem S1x8192 .f32) (harg6 : arg6.IsWhole) (arg7 : Memref sig .tc .vmem S1024x1 .f32) (harg7 : arg7.IsWhole) (arg8 : Memref sig .tc .vmem S1x1 .f32) (harg8 : arg8.IsWhole)
variable (x0 x1 : Vec Ideal S1x1024x128 .f32) (D : ℕ → ℕ → EReal)

/-- A batch's first point. -/
theorem caseA (hc0 : cond0_0 i) (hc1 : cond0_1 i) (hc2 : ¬cond0_2 i) (hc3 : ¬cond0_3 i) (p : ℕ) (hp : p = 0)
    (hT : ∀ a b : Fin 1024, k0_pay7 (F := Ideal) x0 x1 (ix2 a b) = D (p / 8 * 1024 + a.val) (p % 8 * 1024 + b.val))
    (hoff : k0_off1 i = ![0, 1024 * (p % 8)]) :
    ColOK D p (sout0_A_0 c i arg3 harg3 arg4 harg4 arg5 harg5 arg6 harg6 arg7 harg7 arg8 harg8 hc0 hc1 hc2 hc3 x0 x1) ∧ RowOK D p (sout0_A_1 c i arg3 harg3 arg4 harg4 arg5 harg5 arg6 harg6 arg7 harg7 arg8 harg8 hc0 hc1 hc2 hc3 x0 x1)
      ∧ TopOK D p (sout0_A_2 c i arg3 harg3 arg4 harg4 arg5 harg5 arg6 harg6 arg7 harg7 arg8 harg8 hc0 hc1 hc2 hc3 x0 x1) := by
  refine ⟨col_first x0 x1 D p hp hT (sout0_A_0 c i arg3 harg3 arg4 harg4 arg5 harg5 arg6 harg6 arg7 harg7 arg8 harg8 hc0 hc1 hc2 hc3 x0 x1) (View.ld (k0_pay4 (F := Ideal)) (Rect.unit (s := S1x8192) (k0_off1 i) ![1, 1024] (k0_off1_inb i)))
      (fun j cc h => (ld_slab _ _ _ hoff j cc h).trans (pay4_apply cc))
      (fun j cc h => sA0_in c i arg3 harg3 arg4 harg4 arg5 harg5 arg6 harg6 arg7 harg7 arg8 harg8 x0 x1 hc0 hc1 hc2 hc3 (1024 * (p % 8)) hoff j cc h)
      (fun cc h => (sA0_out c i arg3 harg3 arg4 harg4 arg5 harg5 arg6 harg6 arg7 harg7 arg8 harg8 x0 x1 hc0 hc1 hc2 hc3 (1024 * (p % 8)) hoff cc h).trans (pay4_apply cc)), ?_, ?_⟩
  · rw [sA1 c i arg3 harg3 arg4 harg4 arg5 harg5 arg6 harg6 arg7 harg7 arg8 harg8 x0 x1 hc0 hc1 hc2 hc3]; exact row_first x0 x1 D p hT (by omega)
  · rw [sA2 c i arg3 harg3 arg4 harg4 arg5 harg5 arg6 harg6 arg7 harg7 arg8 harg8 x0 x1 hc0 hc1 hc2 hc3]; exact top_first D p hp

/-- A point in the middle of a row of tiles. -/
theorem caseB (hc0 : ¬cond0_0 i) (hc1 : ¬cond0_1 i) (hc2 : ¬cond0_2 i) (hc3 : ¬cond0_3 i) (q p : ℕ) (hq : q + 1 = p)
    (hT : ∀ a b : Fin 1024, k0_pay7 (F := Ideal) x0 x1 (ix2 a b) = D (p / 8 * 1024 + a.val) (p % 8 * 1024 + b.val))
    (hoff : k0_off1 i = ![0, 1024 * (p % 8)]) (h0 : p % 8 ≠ 0) (h7 : p % 8 ≠ 7)
    (xs0 : Vec Ideal S1x8192 .f32) (xs1 : Vec Ideal S1024x1 .f32) (xs2 : Vec Ideal S1x1 .f32)
    (ih0 : ColOK D q xs0) (ih1 : RowOK D q xs1) (ih2 : TopOK D q xs2) :
    ColOK D p (sout0_B_0 c i arg3 harg3 arg4 harg4 arg5 harg5 arg6 harg6 arg7 harg7 arg8 harg8 hc0 hc1 hc2 hc3 x0 x1 xs0 xs1 xs2) ∧ RowOK D p (sout0_B_1 c i arg3 harg3 arg4 harg4 arg5 harg5 arg6 harg6 arg7 harg7 arg8 harg8 hc0 hc1 hc2 hc3 x0 x1 xs0 xs1 xs2)
      ∧ TopOK D p (sout0_B_2 c i arg3 harg3 arg4 harg4 arg5 harg5 arg6 harg6 arg7 harg7 arg8 harg8 hc0 hc1 hc2 hc3 x0 x1 xs0 xs1 xs2) := by
  subst hq
  refine ⟨col_next x0 x1 D q hT _ xs0 (View.ld xs0 (Rect.unit (s := S1x8192) (k0_off1 i) ![1, 1024] (k0_off1_inb i)))
      (fun j cc h => ld_slab _ _ _ hoff j cc h)
      (fun j cc h => sB0_in c i arg3 harg3 arg4 harg4 arg5 harg5 arg6 harg6 arg7 harg7 arg8 harg8 x0 x1 xs0 xs1 xs2 hc0 hc1 hc2 hc3 _ hoff j cc h)
      (fun cc h => sB0_out c i arg3 harg3 arg4 harg4 arg5 harg5 arg6 harg6 arg7 harg7 arg8 harg8 x0 x1 xs0 xs1 xs2 hc0 hc1 hc2 hc3 _ hoff cc h) ih0, ?_, ?_⟩
  · rw [sB1 c i arg3 harg3 arg4 harg4 arg5 harg5 arg6 harg6 arg7 harg7 arg8 harg8 x0 x1 xs0 xs1 xs2 hc0 hc1 hc2 hc3]; exact row_next x0 x1 D (q + 1) hT q rfl h0 xs1 ih1
  · show TopOK D (q + 1) xs2
    exact top_keep D q h7 xs2 ih2

/-- The last point of a row of tiles that is not the batch's last. -/
theorem caseC (hc0 : ¬cond0_0 i) (hc1 : ¬cond0_1 i) (hc2 : cond0_2 i) (hc3 : ¬cond0_3 i) (q p : ℕ) (hq : q + 1 = p)
    (hT : ∀ a b : Fin 1024, k0_pay7 (F := Ideal) x0 x1 (ix2 a b) = D (p / 8 * 1024 + a.val) (p % 8 * 1024 + b.val))
    (hoff : k0_off1 i = ![0, 1024 * (p % 8)]) (h7 : p % 8 = 7)
    (xs0 : Vec Ideal S1x8192 .f32) (xs1 : Vec Ideal S1024x1 .f32) (xs2 : Vec Ideal S1x1 .f32)
    (ih0 : ColOK D q xs0) (ih1 : RowOK D q xs1) (ih2 : TopOK D q xs2) :
    ColOK D p (sout0_C_0 c i arg3 harg3 arg4 harg4 arg5 harg5 arg6 harg6 arg7 harg7 arg8 harg8 hc0 hc1 hc2 hc3 x0 x1 xs0 xs1 xs2) ∧ RowOK D p (sout0_C_1 c i arg3 harg3 arg4 harg4 arg5 harg5 arg6 harg6 arg7 harg7 arg8 harg8 hc0 hc1 hc2 hc3 x0 x1 xs0 xs1 xs2)
      ∧ TopOK D p (sout0_C_2 c i arg3 harg3 arg4 harg4 arg5 harg5 arg6 harg6 arg7 harg7 arg8 harg8 hc0 hc1 hc2 hc3 x0 x1 xs0 xs1 xs2) := by
  subst hq
  have hrow : RowOK D (q + 1) (k0_pay8 (F := Ideal) x0 x1 xs1) := row_next x0 x1 D (q + 1) hT q rfl (by omega) xs1 ih1
  refine ⟨col_next x0 x1 D q hT _ xs0 (View.ld xs0 (Rect.unit (s := S1x8192) (k0_off1 i) ![1, 1024] (k0_off1_inb i)))
      (fun j cc h => ld_slab _ _ _ hoff j cc h)
      (fun j cc h => sC0_in c i arg3 harg3 arg4 harg4 arg5 harg5 arg6 harg6 arg7 harg7 arg8 harg8 x0 x1 xs0 xs1 xs2 hc0 hc1 hc2 hc3 _ hoff j cc h)
      (fun cc h => sC0_out c i arg3 harg3 arg4 harg4 arg5 harg5 arg6 harg6 arg7 harg7 arg8 harg8 x0 x1 xs0 xs1 xs2 hc0 hc1 hc2 hc3 _ hoff cc h) ih0, ?_, ?_⟩
  · rw [sC1 c i arg3 harg3 arg4 harg4 arg5 harg5 arg6 harg6 arg7 harg7 arg8 harg8 x0 x1 xs0 xs1 xs2 hc0 hc1 hc2 hc3]; exact hrow
  · rw [sC2 c i arg3 harg3 arg4 harg4 arg5 harg5 arg6 harg6 arg7 harg7 arg8 harg8 x0 x1 xs0 xs1 xs2 hc0 hc1 hc2 hc3]; exact top_take D q h7 _ xs2 hrow ih2

/-- The first point of a later row of tiles. -/
theorem caseD (hc0 : ¬cond0_0 i) (hc1 : cond0_1 i) (hc2 : ¬cond0_2 i) (hc3 : ¬cond0_3 i) (q p : ℕ) (hq : q + 1 = p)
    (hT : ∀ a b : Fin 1024, k0_pay7 (F := Ideal) x0 x1 (ix2 a b) = D (p / 8 * 1024 + a.val) (p % 8 * 1024 + b.val))
    (hoff : k0_off1 i = ![0, 1024 * (p % 8)]) (h0 : p % 8 = 0)
    (xs0 : Vec Ideal S1x8192 .f32) (xs2 : Vec Ideal S1x1 .f32)
    (ih0 : ColOK D q xs0) (ih2 : TopOK D q xs2) :
    ColOK D p (sout0_D_0 c i arg3 harg3 arg4 harg4 arg5 harg5 arg6 harg6 arg7 harg7 arg8 harg8 hc0 hc1 hc2 hc3 x0 x1 xs0 xs2) ∧ RowOK D p (sout0_D_1 c i arg3 harg3 arg4 harg4 arg5 harg5 arg6 harg6 arg7 harg7 arg8 harg8 hc0 hc1 hc2 hc3 x0 x1 xs0 xs2)
      ∧ TopOK D p (sout0_D_2 c i arg3 harg3 arg4 harg4 arg5 harg5 arg6 harg6 arg7 harg7 arg8 harg8 hc0 hc1 hc2 hc3 x0 x1 xs0 xs2) := by
  subst hq
  refine ⟨col_next x0 x1 D q hT _ xs0 (View.ld xs0 (Rect.unit (s := S1x8192) (k0_off1 i) ![1, 1024] (k0_off1_inb i)))
      (fun j cc h => ld_slab _ _ _ hoff j cc h)
      (fun j cc h => sD0_in c i arg3 harg3 arg4 harg4 arg5 harg5 arg6 harg6 arg7 harg7 arg8 harg8 x0 x1 xs0 xs2 hc0 hc1 hc2 hc3 _ hoff j cc h)
      (fun cc h => sD0_out c i arg3 harg3 arg4 harg4 arg5 harg5 arg6 harg6 arg7 harg7 arg8 harg8 x0 x1 xs0 xs2 hc0 hc1 hc2 hc3 _ hoff cc h) ih0, ?_, ?_⟩
  · rw [sD1 c i arg3 harg3 arg4 harg4 arg5 harg5 arg6 harg6 arg7 harg7 arg8 harg8 x0 x1 xs0 xs2 hc0 hc1 hc2 hc3]; exact row_first x0 x1 D (q + 1) hT h0
  · show TopOK D (q + 1) xs2
    exact top_keep D q (by omega) xs2 ih2

/-- A batch's last point: the buffers as at the end of any row of tiles. -/
theorem caseE (hc0 : ¬cond0_0 i) (hc1 : ¬cond0_1 i) (hc2 : cond0_2 i) (hc3 : cond0_3 i) (q p : ℕ) (hq : q + 1 = p)
    (hT : ∀ a b : Fin 1024, k0_pay7 (F := Ideal) x0 x1 (ix2 a b) = D (p / 8 * 1024 + a.val) (p % 8 * 1024 + b.val))
    (hoff : k0_off1 i = ![0, 1024 * (p % 8)]) (h7 : p % 8 = 7)
    (xs0 : Vec Ideal S1x8192 .f32) (xs1 : Vec Ideal S1024x1 .f32) (xs2 : Vec Ideal S1x1 .f32)
    (ih0 : ColOK D q xs0) (ih1 : RowOK D q xs1) (ih2 : TopOK D q xs2) :
    ColOK D p (sout0_E_0 c i arg3 harg3 arg4 harg4 arg5 harg5 arg6 harg6 arg7 harg7 arg8 harg8 hc0 hc1 hc2 hc3 x0 x1 xs0 xs1 xs2) ∧ RowOK D p (sout0_E_1 c i arg3 harg3 arg4 harg4 arg5 harg5 arg6 harg6 arg7 harg7 arg8 harg8 hc0 hc1 hc2 hc3 x0 x1 xs0 xs1 xs2)
      ∧ TopOK D p (sout0_E_2 c i arg3 harg3 arg4 harg4 arg5 harg5 arg6 harg6 arg7 harg7 arg8 harg8 hc0 hc1 hc2 hc3 x0 x1 xs0 xs1 xs2) := by
  subst hq
  have hrow : RowOK D (q + 1) (k0_pay8 (F := Ideal) x0 x1 xs1) := row_next x0 x1 D (q + 1) hT q rfl (by omega) xs1 ih1
  refine ⟨col_next x0 x1 D q hT _ xs0 (View.ld xs0 (Rect.unit (s := S1x8192) (k0_off1 i) ![1, 1024] (k0_off1_inb i)))
      (fun j cc h => ld_slab _ _ _ hoff j cc h)
      (fun j cc h => sE0_in c i arg3 harg3 arg4 harg4 arg5 harg5 arg6 harg6 arg7 harg7 arg8 harg8 x0 x1 xs0 xs1 xs2 hc0 hc1 hc2 hc3 _ hoff j cc h)
      (fun cc h => sE0_out c i arg3 harg3 arg4 harg4 arg5 harg5 arg6 harg6 arg7 harg7 arg8 harg8 x0 x1 xs0 xs1 xs2 hc0 hc1 hc2 hc3 _ hoff cc h) ih0, ?_, ?_⟩
  · rw [sE1 c i arg3 harg3 arg4 harg4 arg5 harg5 arg6 harg6 arg7 harg7 arg8 harg8 x0 x1 xs0 xs1 xs2 hc0 hc1 hc2 hc3]; exact hrow
  · rw [sE2 c i arg3 harg3 arg4 harg4 arg5 harg5 arg6 harg6 arg7 harg7 arg8 harg8 x0 x1 xs0 xs1 xs2 hc0 hc1 hc2 hc3]; exact top_take D q h7 _ xs2 hrow ih2

/-- And its output block: every entry is the result for the batch's distance matrix. -/
theorem caseE_out (hc0 : ¬cond0_0 i) (hc1 : ¬cond0_1 i) (hc2 : cond0_2 i) (hc3 : cond0_3 i)
    (xs0 : Vec Ideal S1x8192 .f32) (xs1 : Vec Ideal S1024x1 .f32) (xs2 : Vec Ideal S1x1 .f32)
    (h0 : ColOK D 63 (sout0_E_0 c i arg3 harg3 arg4 harg4 arg5 harg5 arg6 harg6 arg7 harg7 arg8 harg8 hc0 hc1 hc2 hc3 x0 x1 xs0 xs1 xs2))
    (h2 : TopOK D 63 (sout0_E_2 c i arg3 harg3 arg4 harg4 arg5 harg5 arg6 harg6 arg7 harg7 arg8 harg8 hc0 hc1 hc2 hc3 x0 x1 xs0 xs1 xs2)) (a : Fin 8) (l : Fin 128) :
    out0_E_2 c i arg3 harg3 arg4 harg4 arg5 harg5 arg6 harg6 arg7 harg7 arg8 harg8 hc0 hc1 hc2 hc3 x0 x1 xs0 xs1 xs2 (ix3 (0 : Fin 1) a l) = hd D := by
  rw [oE c i arg3 harg3 arg4 harg4 arg5 harg5 arg6 harg6 arg7 harg7 arg8 harg8 x0 x1 xs0 xs1 xs2 hc0 hc1 hc2 hc3, ← sE2 c i arg3 harg3 arg4 harg4 arg5 harg5 arg6 harg6 arg7 harg7 arg8 harg8 x0 x1 xs0 xs1 xs2 hc0 hc1 hc2 hc3]
  exact out_last D _ _ h0 h2 a l

end Cert.KernelIdeal.Cases

end
-- ==== Proof.Blocks.lean ====
/-
  Where the grid's points sit: point t of the 4 x 8 x 8 grid is batch t / 64, row tile t / 8 % 8, column tile t % 8.
  Its block of X is the 1024 rows of that row tile in that batch, its block of Y the 1024 rows of that column tile,
  its slab of the column-minimum row starts at column 1024 * (t % 8), and its output block is batch t / 64's.
-/
import proofs.«110477_j42082089566512_1_alg».proof.Proof.Gen.KernelIdeal.Frame
import proofs.«110477_j42082089566512_1_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Hausdorff Idealize.ShloMosaic.ValueIdx

variable {F : FTy → Type} [FloatOps F]
variable (m : (ℓ : Loc nD τ sig) → Buf (Elt F) ℓ)

/-- The index maps, decided over the 256 points. -/
theorem idx0 : ∀ t : Fin cfg0.N, win0_0.index t 0 = t.val / 64 ∧ win0_0.index t 1 = t.val / 8 % 8 ∧ win0_0.index t 2 = 0 :=
  (by decide +kernel : ∀ t : Fin grid0.N, win0_0.index t 0 = t.val / 64 ∧ win0_0.index t 1 = t.val / 8 % 8 ∧ win0_0.index t 2 = 0)
theorem idx1 : ∀ t : Fin cfg0.N, win0_1.index t 0 = t.val / 64 ∧ win0_1.index t 1 = t.val % 8 ∧ win0_1.index t 2 = 0 :=
  (by decide +kernel : ∀ t : Fin grid0.N, win0_1.index t 0 = t.val / 64 ∧ win0_1.index t 1 = t.val % 8 ∧ win0_1.index t 2 = 0)
theorem idx2 : ∀ t : Fin cfg0.N, win0_2.index t 0 = t.val / 64 ∧ win0_2.index t 1 = 0 ∧ win0_2.index t 2 = 0 :=
  (by decide +kernel : ∀ t : Fin grid0.N, win0_2.index t 0 = t.val / 64 ∧ win0_2.index t 1 = 0 ∧ win0_2.index t 2 = 0)
/-- The slab of the column-minimum row a point updates starts at column 1024 * (t % 8). -/
theorem off1 : ∀ t : Fin cfg0.N, k0_off1 (grid0.coords t) = ![0, 1024 * (t.val % 8)] :=
  (by decide +kernel : ∀ t : Fin grid0.N, k0_off1 (grid0.coords t) = ![0, 1024 * (t.val % 8)])

/-- Point t's block of X, at (row i, lane k): X at batch t / 64, row (t / 8 % 8) * 1024 + i. -/
theorem iblk0_apply (c : Dev nD) (t : Fin cfg0.N) (i : Fin 1024) (k : Fin 128) :
    iblk m c 0 t (ix3 (0 : Fin 1) i k)
      = V m c main_arg0 (ix3 (f4 (t.val / 64)) (f8192 (t.val / 8 % 8 * 1024 + i.val)) k) := by
  obtain ⟨h0, h1, h2⟩ := idx0 t
  have hN : t.val < 256 := lt_of_lt_of_eq t.isLt (show cfg0.N = 256 from N_0)
  unfold iblk
  rw [View.read_apply]
  show V m c main_arg0 (((cfg0.win 0).blk t).view.emb (ix3 (0 : Fin 1) i k)) = V m c main_arg0 _
  refine congrArg (V m c main_arg0) (funext fun a => Fin.ext ?_)
  match a with
  | ⟨0, _⟩ => show win0_0.index t 0 * 1 + 1 * 0 = t.val / 64 % 4; rw [h0]; omega
  | ⟨1, _⟩ => show win0_0.index t 1 * 1024 + 1 * i.val = (t.val / 8 % 8 * 1024 + i.val) % 8192; rw [h1]; omega
  | ⟨2, _⟩ => show win0_0.index t 2 * 128 + 1 * k.val = k.val; rw [h2]; omega

/-- Point t's block of Y, at (row j, lane k): Y at batch t / 64, row (t % 8) * 1024 + j. -/
theorem iblk1_apply (c : Dev nD) (t : Fin cfg0.N) (j : Fin 1024) (k : Fin 128) :
    iblk m c 1 t (ix3 (0 : Fin 1) j k)
      = V m c main_arg1 (ix3 (f4 (t.val / 64)) (f8192 (t.val % 8 * 1024 + j.val)) k) := by
  obtain ⟨h0, h1, h2⟩ := idx1 t
  have hN : t.val < 256 := lt_of_lt_of_eq t.isLt (show cfg0.N = 256 from N_0)
  unfold iblk
  rw [View.read_apply]
  show V m c main_arg1 (((cfg0.win 1).blk t).view.emb (ix3 (0 : Fin 1) j k)) = V m c main_arg1 _
  refine congrArg (V m c main_arg1) (funext fun a => Fin.ext ?_)
  match a with
  | ⟨0, _⟩ => show win0_1.index t 0 * 1 + 1 * 0 = t.val / 64 % 4; rw [h0]; omega
  | ⟨1, _⟩ => show win0_1.index t 1 * 1024 + 1 * j.val = (t.val % 8 * 1024 + j.val) % 8192; rw [h1]; omega
  | ⟨2, _⟩ => show win0_1.index t 2 * 128 + 1 * k.val = k.val; rw [h2]; omega

end Cert.KernelIdeal.Blocks

end
-- ==== Proof.Value.lean ====
/-
  The kernel's run, read as a value. By induction along the grid's 256 points the three scratch buffers hold, after
  point t, the sweep's quantities after tile t % 64 of batch t / 64's distance matrix; so the block the last point of
  each batch writes back is the splat of that batch's result, the output array ends holding, in batch b's block, the
  result of batch b, and the two host operations after the region (entry (b, 0, 0) of each block, then the unit axes
  dropped) leave the vector of the four results.
-/
import proofs.«110477_j42082089566512_1_alg».proof.Proof.Cases
import proofs.«110477_j42082089566512_1_alg».proof.Proof.Blocks
import Idealize.ShloMosaic.Lib.StableHlo.Run

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Pieces Cert.KernelIdeal.Steps Cert.KernelIdeal.Cases Cert.KernelIdeal.Blocks
open Cert.Hausdorff Idealize.ShloMosaic.ValueIdx Finset

variable (m : (ℓ : Loc nD τ sig) → Buf (Elt Ideal) ℓ) (ρ : Dev nD → PrngReg)

/-- Batch b's distance matrix of the argument arrays as the region finds them. -/
def dmB (c : Dev nD) (b : ℕ) : ℕ → ℕ → EReal := distN (V m c main_arg0) (V m c main_arg1) b
/-- The distance matrix of the batch point n works on. -/
def dm (c : Dev nD) (n : ℕ) : ℕ → ℕ → EReal := dmB m c (n / 64)

/-- The tile point t computes is tile (t % 64 / 8, t % 64 % 8) of its batch's distance matrix. -/
theorem tile (c : Dev nD) (t : Fin cfg0.N) (a b : Fin 1024) :
    k0_pay7 (F := Ideal) (iblk m c 0 t) (iblk m c 1 t) (ix2 a b)
      = dm m c t.val (t.val % 64 / 8 * 1024 + a.val) (t.val % 64 % 8 * 1024 + b.val) := by
  refine (pay7_apply (iblk m c 0 t) (iblk m c 1 t) a b).trans ?_
  have e1 : t.val % 64 / 8 = t.val / 8 % 8 := by omega
  have e2 : t.val % 64 % 8 = t.val % 8 := by omega
  unfold dm dmB distN Cert.Hausdorff.dist
  rw [e1, e2]
  simp only [iblk0_apply, iblk1_apply]

/-- The slab point t updates, in terms of its tile number. -/
theorem off (t : Fin cfg0.N) : k0_off1 (grid0.coords t) = ![0, 1024 * (t.val % 64 % 8)] := by
  rw [off1 t, show t.val % 64 % 8 = t.val % 8 from by omega]

/-- After point n the scratch buffers hold the sweep's quantities after tile n % 64 of the batch's distance matrix. -/
def Inv (c : Dev nD) (n : ℕ) (hn : n < cfg0.N) : Prop :=
  ColOK (dm m c n) (n % 64) (outsAt0 m c n hn).2.1 ∧ RowOK (dm m c n) (n % 64) (outsAt0 m c n hn).2.2.1
    ∧ TopOK (dm m c n) (n % 64) (outsAt0 m c n hn).2.2.2

theorem inv_A (c : Dev nD) (t : Fin cfg0.N) (h0 : t.val % 64 = 0) : Inv m c t.val t.isLt := by
  have hN : t.val < 256 := lt_of_lt_of_eq t.isLt (show cfg0.N = 256 from N_0)
  have hT := tile m c t
  have ho := off t
  unfold Inv
  rw [outsAt0_A m c t h0 (by omega) (by omega) (by omega)]
  dsimp only
  exact caseA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (dm m c t.val) _ _ _ _ (t.val % 64) h0 hT ho

/-- The buffers a later point of a batch finds are those of the same batch, one tile earlier. -/
theorem prev (c : Dev nD) (t : Fin cfg0.N) (q : ℕ) (hq : q + 1 = t.val % 64)
    (ih : Inv m c (t.val - 1) (Nat.lt_of_le_of_lt (Nat.sub_le _ _) t.isLt)) :
    ColOK (dm m c t.val) q (outsAt0 m c (t.val - 1) (Nat.lt_of_le_of_lt (Nat.sub_le _ _) t.isLt)).2.1
      ∧ RowOK (dm m c t.val) q (outsAt0 m c (t.val - 1) (Nat.lt_of_le_of_lt (Nat.sub_le _ _) t.isLt)).2.2.1
      ∧ TopOK (dm m c t.val) q (outsAt0 m c (t.val - 1) (Nat.lt_of_le_of_lt (Nat.sub_le _ _) t.isLt)).2.2.2 := by
  have hd : dm m c (t.val - 1) = dm m c t.val := by
    unfold dm; rw [show (t.val - 1) / 64 = t.val / 64 from by omega]
  have hq' : (t.val - 1) % 64 = q := by omega
  unfold Inv at ih
  rw [hd, hq'] at ih
  exact ih

theorem inv_B (c : Dev nD) (t : Fin cfg0.N) (h0 : ¬t.val % 64 = 0) (h1 : ¬t.val % 8 = 0) (h2 : ¬t.val % 8 = 7) (h3 : ¬t.val % 64 = 63)
    (ih : Inv m c (t.val - 1) (Nat.lt_of_le_of_lt (Nat.sub_le _ _) t.isLt)) : Inv m c t.val t.isLt := by
  obtain ⟨q, hq⟩ : ∃ q, q + 1 = t.val % 64 := ⟨t.val % 64 - 1, by omega⟩
  obtain ⟨ih0, ih1, ih2⟩ := prev m c t q hq ih
  have hT := tile m c t
  have ho := off t
  unfold Inv
  rw [outsAt0_B m c t h0 h1 h2 h3]
  dsimp only
  exact caseB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (dm m c t.val) _ _ _ _ q (t.val % 64) hq hT ho (by omega) (by omega) _ _ _ ih0 ih1 ih2

theorem inv_C (c : Dev nD) (t : Fin cfg0.N) (h0 : ¬t.val % 64 = 0) (h1 : ¬t.val % 8 = 0) (h2 : t.val % 8 = 7) (h3 : ¬t.val % 64 = 63)
    (ih : Inv m c (t.val - 1) (Nat.lt_of_le_of_lt (Nat.sub_le _ _) t.isLt)) : Inv m c t.val t.isLt := by
  obtain ⟨q, hq⟩ : ∃ q, q + 1 = t.val % 64 := ⟨t.val % 64 - 1, by omega⟩
  obtain ⟨ih0, ih1, ih2⟩ := prev m c t q hq ih
  have hT := tile m c t
  have ho := off t
  unfold Inv
  rw [outsAt0_C m c t h0 h1 h2 h3]
  dsimp only
  exact caseC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (dm m c t.val) _ _ _ _ q (t.val % 64) hq hT ho (by omega) _ _ _ ih0 ih1 ih2

theorem inv_D (c : Dev nD) (t : Fin cfg0.N) (h0 : ¬t.val % 64 = 0) (h1 : t.val % 8 = 0) (h2 : ¬t.val % 8 = 7) (h3 : ¬t.val % 64 = 63)
    (ih : Inv m c (t.val - 1) (Nat.lt_of_le_of_lt (Nat.sub_le _ _) t.isLt)) : Inv m c t.val t.isLt := by
  obtain ⟨q, hq⟩ : ∃ q, q + 1 = t.val % 64 := ⟨t.val % 64 - 1, by omega⟩
  obtain ⟨ih0, ih1, ih2⟩ := prev m c t q hq ih
  have hT := tile m c t
  have ho := off t
  unfold Inv
  rw [outsAt0_D m c t h0 h1 h2 h3]
  dsimp only
  exact caseD c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (dm m c t.val) _ _ _ _ q (t.val % 64) hq hT ho (by omega) _ _ ih0 ih2

theorem inv_E (c : Dev nD) (t : Fin cfg0.N) (h0 : ¬t.val % 64 = 0) (h1 : ¬t.val % 8 = 0) (h2 : t.val % 8 = 7) (h3 : t.val % 64 = 63)
    (ih : Inv m c (t.val - 1) (Nat.lt_of_le_of_lt (Nat.sub_le _ _) t.isLt)) : Inv m c t.val t.isLt := by
  obtain ⟨q, hq⟩ : ∃ q, q + 1 = t.val % 64 := ⟨t.val % 64 - 1, by omega⟩
  obtain ⟨ih0, ih1, ih2⟩ := prev m c t q hq ih
  have hT := tile m c t
  have ho := off t
  unfold Inv
  rw [outsAt0_E m c t h0 h1 h2 h3]
  dsimp only
  exact caseE c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (dm m c t.val) _ _ _ _ q (t.val % 64) hq hT ho (by omega) _ _ _ ih0 ih1 ih2

/-- The invariant at every point, by induction along the grid. -/
theorem inv (c : Dev nD) : ∀ (n : ℕ) (hn : n < cfg0.N), Inv m c n hn
  | 0, hn => inv_A m c ⟨0, hn⟩ rfl
  | n + 1, hn => by
    have ih : Inv m c n (Nat.lt_of_succ_lt hn) := inv c n (Nat.lt_of_succ_lt hn)
    have hN : n + 1 < 256 := lt_of_lt_of_eq hn (show cfg0.N = 256 from N_0)
    by_cases h0 : (n + 1) % 64 = 0
    · exact inv_A m c ⟨n + 1, hn⟩ h0
    · by_cases h1 : (n + 1) % 8 = 0
      · exact inv_D m c ⟨n + 1, hn⟩ h0 h1 (by show ¬(n + 1) % 8 = 7; omega) (by show ¬(n + 1) % 64 = 63; omega) ih
      · by_cases h2 : (n + 1) % 8 = 7
        · by_cases h3 : (n + 1) % 64 = 63
          · exact inv_E m c ⟨n + 1, hn⟩ h0 h1 h2 h3 ih
          · exact inv_C m c ⟨n + 1, hn⟩ h0 h1 h2 h3 ih
        · exact inv_B m c ⟨n + 1, hn⟩ h0 h1 h2 (by show ¬(n + 1) % 64 = 63; omega) ih

/-- The block a batch's last point leaves for write-back: every entry is the batch's result. -/
theorem out_last_point (c : Dev nD) (t : Fin cfg0.N) (h63 : t.val % 64 = 63) (a : Fin 8) (l : Fin 128) :
    (outsAt0 m c t.val t.isLt).1 (ix3 (0 : Fin 1) a l) = hd (dm m c t.val) := by
  have hinv := inv m c t.val t.isLt
  unfold Inv at hinv
  rw [h63] at hinv
  rw [outsAt0_E m c t (by omega) (by omega) (by omega) h63] at hinv ⊢
  dsimp only at hinv ⊢
  exact caseE_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (dm m c t.val) _ _ _ _ _ _ _ hinv.1 hinv.2.2 a l

end Cert.KernelIdeal.RunValue

end
-- ==== Proof.Result.lean ====
/-
  From the blocks written back to the program's result: batch b's block of the output array is written once, by the
  batch's last point, and holds the batch's result in every entry; the host operations after the region read entry
  (b, 0, 0) of each block, so the program's result is the vector of the four batches' results.
-/
import proofs.«110477_j42082089566512_1_alg».proof.Proof.Value

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Blocks
open Cert.Hausdorff Idealize.ShloMosaic.ValueIdx Finset

variable (m : (ℓ : Loc nD τ sig) → Buf (Elt Ideal) ℓ) (ρ : Dev nD → PrngReg)

/-- What the output array ends holding: in batch b's block, the result of batch b. -/
def Gout (c : Dev nD) : Buf (Elt Ideal) ((c : Thread nD τ).loc main_v0) :=
  fun (y : S4x8x128.Idx) => hd (dmB m c (y 0).val)

/-- An index of the output array is in point t's block iff each coordinate is in the block's range on its axis. -/
theorem mem_blk (t : Fin cfg0.N) (y : S4x8x128.Idx) :
    y ∈ ((cfg0.win 2).blk t).view.set ↔ ∀ a : Fin 3, win0_2.index t a * S1x8x128.size a ≤ (y a).val ∧ (y a).val < win0_2.index t a * S1x8x128.size a + S1x8x128.size a := by
  show y ∈ ((View.whole main_v0).slice (win0_2.rect t)).set ↔ _
  rw [View.set_slice_whole, Rect.mem_set_unit]
  exact Iff.rfl

/-- What a batch's last point writes back is its block of that array. -/
theorem flushed_eq (c : Dev nD) (t : Fin cfg0.N) (hf : (cfg0.win 2).flush t = true) :
    (dats m 0 c).flushed 2 t = ((cfg0.win 2).blk t).view.read (Elt Ideal) (Gout m c) := by
  have h63 : t.val % 64 = 63 := (flush0_2 t).mp hf
  obtain ⟨i0, i1, i2⟩ := idx2 t
  show (cfg0.win 2).cut (grid0.coords t) ((dats m 0 c).after 2 t) = _
  rw [after0_2]
  refine funext fun (y : S1x8x128.Idx) => ?_
  rw [View.read_apply]
  show (outsAt0 m c t.val t.isLt).1 y = Gout m c (((cfg0.win 2).blk t).view.emb y)
  obtain ⟨a, l, rfl⟩ : ∃ (a : Fin 8) (l : Fin 128), y = ix3 (0 : Fin 1) a l :=
    ⟨y 1, y 2, funext fun d => by
      match d with
      | ⟨0, _⟩ => exact Fin.fin_one_eq_zero (y 0)
      | ⟨1, _⟩ => rfl
      | ⟨2, _⟩ => rfl⟩
  rw [out_last_point m c t h63 a l]
  unfold Gout dm
  refine congrArg (fun b => hd (dmB m c b)) ?_
  show t.val / 64 = win0_2.index t 0 * 1 + 1 * 0
  rw [i0]; omega

/-- Every index of the output array is in the block some batch's last point writes back. -/
theorem cover (c : Dev nD) (y : S4x8x128.Idx) :
    ∃ t : Fin cfg0.N, (cfg0.win 2).flush t = true ∧ y ∈ ((cfg0.win 2).blk t).view.set := by
  have hy0 : (y 0).val < 4 := (y 0).isLt
  have hy1 : (y 1).val < 8 := (y 1).isLt
  have hy2 : (y 2).val < 128 := (y 2).isLt
  have hN : cfg0.N = 256 := N_0
  have ht : 64 * (y 0).val + 63 < cfg0.N := by rw [hN]; omega
  obtain ⟨i0, i1, i2⟩ := idx2 ⟨64 * (y 0).val + 63, ht⟩
  refine ⟨⟨64 * (y 0).val + 63, ht⟩, (flush0_2 _).mpr (by show (64 * (y 0).val + 63) % 64 = 63; omega), ?_⟩
  rw [mem_blk]
  intro a
  match a with
  | ⟨0, _⟩ =>
    show win0_2.index ⟨64 * (y 0).val + 63, ht⟩ 0 * 1 ≤ (y 0).val ∧ (y 0).val < win0_2.index ⟨64 * (y 0).val + 63, ht⟩ 0 * 1 + 1
    rw [i0]; show (64 * (y 0).val + 63) / 64 * 1 ≤ (y 0).val ∧ (y 0).val < (64 * (y 0).val + 63) / 64 * 1 + 1; omega
  | ⟨1, _⟩ =>
    show win0_2.index ⟨64 * (y 0).val + 63, ht⟩ 1 * 8 ≤ (y 1).val ∧ (y 1).val < win0_2.index ⟨64 * (y 0).val + 63, ht⟩ 1 * 8 + 8
    rw [i1]; omega
  | ⟨2, _⟩ =>
    show win0_2.index ⟨64 * (y 0).val + 63, ht⟩ 2 * 128 ≤ (y 2).val ∧ (y 2).val < win0_2.index ⟨64 * (y 0).val + 63, ht⟩ 2 * 128 + 128
    rw [i2]; omega

/-- So the output array ends holding that array. -/
theorem final (c : Dev nD) : (dats m 0 c).arrAt 2 cfg0.N = Gout m c :=
  (dats m 0 c).arrAt_eq_of_cover 2 (Gout m c) (fun t hf => flushed_eq m c t hf) (cover c)

/-- Entry (b, 0, 0) of each batch's block, then the unit axes dropped: the vector reads the array at (b, 0, 0). -/
theorem read_corner {α : Type} (G : S4x8x128.Idx → α) (b : Fin 4) :
    shapeCast S4 (extractStridedSlice S4x1x1 ![0, 0, 0] G slices_S4x8x128_S4x1x1_0_0_0) shapeCasts_S4x1x1_S4 (ix1 b)
      = G (ix3 b (0 : Fin 8) (0 : Fin 128)) := by
  refine (shapeCast_apply _ shapeCasts_S4x1x1_S4 (ix1 b) (ix3 b (0 : Fin 1) (0 : Fin 1)) (by
    rw [Shape.rowMajor_val_three, Shape.rowMajor_val_one]
    show (b.val * 1 + 0) * 1 + 0 = b.val
    omega)).trans ?_
  exact extractStridedSlice_apply ![0, 0, 0] G slices_S4x8x128_S4x1x1_0_0_0 (ix3 b (0 : Fin 1) (0 : Fin 1))
    (ix3 b (0 : Fin 8) (0 : Fin 128)) (fun a => by
      match a with
      | ⟨0, _⟩ => show b.val = 0 + b.val; omega
      | ⟨1, _⟩ => rfl
      | ⟨2, _⟩ => rfl)

/-- The output array as the host operations after the region find it. -/
theorem arr_eq (c : Dev nD) :
    Pipeline.withArrays (cfgs 0).spec c (V0 m c) (fun w => (dats m 0 c).arrAt w (cfgs 0).N) (Proc.devRef .tc main_v0) = Gout m c :=
  (Pipeline.withArrays_arr spec0 launch0.win.arr_inj c _ _ 2).trans (final m c)

/-- The two host operations after the region, on that array, leave the vector of the four results. -/
theorem tail_eq (c : Dev nD) :
    Pipeline.afterTail₀ cfgs (dats m) 0 (V0 m) [hostOps1] c main_v2 = Cert.Hausdorff.result (V m c main_arg0) (V m c main_arg1) := by
  unfold Pipeline.afterTail₀
  show StableHlo.after hostOps1 _ (Proc.devRef .tc main_v2) = _
  after_results
  rw [arr_eq m c]
  funext i
  obtain ⟨b, rfl⟩ : ∃ b : Fin 4, i = ix1 b := ⟨i 0, eq_ix1 i⟩
  exact (read_corner (Gout m c) b).trans rfl

/-- The run, read: every weakly fair execution terminates with the result buffer at the vector of the four batches'
    results of the argument arrays, and the arguments unchanged. -/
theorem run : θ_run defs (onTc (τ := τ) (main (F := Ideal))) ⟨m, fun _ => 0, ρ⟩ fun r => ∀ c : Dev nD,
      r.2.mem ((c : Thread nD τ).loc main_v2) = Cert.Hausdorff.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefValue.lean ====
import proofs.«110477_j42082089566512_1_alg».proof.Proof.Spec
import proofs.«110477_j42082089566512_1_alg».proof.Proof.Gen.ReferenceIdeal.Read
import Idealize.ShloMosaic.PureOps.Ideal.Laws

/-!
# The reference program computes the specified function

At the extended reals the reference forms, for each batch, the matrix D r c = (|x_r|² + |y_c|²) − 2·⟨x_r, y_c⟩,
takes the minimum of every row and of every column, then the maximum of the row minima and of the column minima,
and returns the larger of the two. Each stage is read at an index; a minimum from +∞ (a maximum from −∞) folded
over one axis is the infimum (supremum) over that axis's coordinates, restated over a range of natural numbers.
-/

noncomputable section

namespace Cert.Hausdorff.RefAux

open Finset Idealize.ShloMosaic Idealize.ShloMosaic.ValueIdx Cert.ReferenceIdeal Cert.ReferenceIdeal.Read

/-- A minimum over all of Fin n is the minimum over the range below n. -/
theorem univ_inf_eq_range_inf {n : ℕ} (f : Fin n → EReal) (g : ℕ → EReal) (h : ∀ j : Fin n, f j = g j.val) :
    (univ : Finset (Fin n)).inf f = (range n).inf g := by
  apply le_antisymm
  · refine Finset.le_inf fun k hk => ?_
    have hk' : k < n := Finset.mem_range.1 hk
    have e := Finset.inf_le (f := f) (Finset.mem_univ (⟨k, hk'⟩ : Fin n))
    rw [h] at e
    exact e
  · refine Finset.le_inf fun j _ => ?_
    rw [h]
    exact Finset.inf_le (Finset.mem_range.2 j.isLt)

/-- A maximum over all of Fin n is the maximum over the range below n. -/
theorem univ_sup_eq_range_sup {n : ℕ} (f : Fin n → EReal) (g : ℕ → EReal) (h : ∀ j : Fin n, f j = g j.val) :
    (univ : Finset (Fin n)).sup f = (range n).sup g := by
  apply le_antisymm
  · refine Finset.sup_le fun j _ => ?_
    rw [h]
    exact Finset.le_sup (f := g) (Finset.mem_range.2 j.isLt)
  · refine Finset.sup_le fun k hk => ?_
    have hk' : k < n := Finset.mem_range.1 hk
    have e := Finset.le_sup (f := f) (Finset.mem_univ (⟨k, hk'⟩ : Fin n))
    rw [h] at e
    exact e

/-- A fold of a commutative associative operation that is the minimum, from the top element, is the infimum. -/
theorem fold_eq_inf {ι : Type} (op : EReal → EReal → EReal) [Std.Commutative op] [Std.Associative op]
    (hop : ∀ x y, op x y = min x y) (b : EReal) (hb : b = ⊤) (s : Finset ι) (f : ι → EReal) :
    s.fold op b f = s.inf f := by
  classical
  subst hb
  induction s using Finset.induction_on with
  | empty => rw [Finset.fold_empty, Finset.inf_empty]
  | insert a s ha ih => rw [Finset.fold_insert ha, Finset.inf_insert, ih, hop]

/-- A fold of a commutative associative operation that is the maximum, from the bottom element, is the supremum. -/
theorem fold_eq_sup {ι : Type} (op : EReal → EReal → EReal) [Std.Commutative op] [Std.Associative op]
    (hop : ∀ x y, op x y = max x y) (b : EReal) (hb : b = ⊥) (s : Finset ι) (f : ι → EReal) :
    s.fold op b f = s.sup f := by
  classical
  subst hb
  induction s using Finset.induction_on with
  | empty => rw [Finset.fold_empty, Finset.sup_empty]
  | insert a s ha ih => rw [Finset.fold_insert ha, Finset.sup_insert, ih, hop]

theorem posInf_eq_top : Ideal.ofBits .f32 0x7F800000#32 = (⊤ : EReal) := by simp [Ideal.ofBits, Ideal.ieee]
theorem negInf_eq_bot : Ideal.ofBits .f32 0xFF800000#32 = (⊥ : EReal) := by simp [Ideal.ofBits, Ideal.ieee]

/-- The row norms, broadcast along the columns: entry (b, r, c) is the sum of squares of row r of X. -/
theorem rowNorm_entry (X : (⟨S4x8192x128, .f32⟩ : BufTy).Contents (Elt Ideal)) (b : Fin 4) (r c : Fin 8192) :
    val_main_v7 (F := Ideal) X (ix3 b r c) = ∑ k : Fin 128, X (ix3 b r k) * X (ix3 b r k) := by
  rw [val_main_v7_apply, val_main_v2_apply, val_main_v1_apply, val_main_cst_apply, Ideal.ofBits_def,
    Ideal.ofBits_zero_f32, zero_add]
  refine Finset.sum_congr rfl fun k _ => ?_
  rw [val_main_v0_apply, Ideal.mulf_def]
  have e : idx_main_v1 (idx_main_v2 (idx_main_v7 (ix3 b r c))) k = ix3 b r k :=
    funext fun a => Fin.ext (by match a with | ⟨0, _⟩ => rfl | ⟨1, _⟩ => rfl | ⟨2, _⟩ => rfl)
  rw [e]

/-- The column norms, broadcast along the rows: entry (b, r, c) is the sum of squares of row c of Y. -/
theorem colNorm_entry (Y : (⟨S4x8192x128, .f32⟩ : BufTy).Contents (Elt Ideal)) (b : Fin 4) (r c : Fin 8192) :
    val_main_v8 (F := Ideal) Y (ix3 b r c) = ∑ k : Fin 128, Y (ix3 b c k) * Y (ix3 b c k) := by
  rw [val_main_v8_apply, val_main_v5_apply, val_main_v4_apply, val_main_cst_0_apply, Ideal.ofBits_def,
    Ideal.ofBits_zero_f32, zero_add]
  refine Finset.sum_congr rfl fun k _ => ?_
  rw [val_main_v3_apply, Ideal.mulf_def]
  have e : idx_main_v4 (idx_main_v5 (idx_main_v8 (ix3 b r c))) k = ix3 b c k :=
    funext fun a => Fin.ext (by match a with | ⟨0, _⟩ => rfl | ⟨1, _⟩ => rfl | ⟨2, _⟩ => rfl)
  rw [e]

/-- The doubled inner products: entry (b, r, c) is the word 2.0 times the inner product of row r of X and row c of Y. -/
theorem cross_entry (X Y : (⟨S4x8192x128, .f32⟩ : BufTy).Contents (Elt Ideal)) (b : Fin 4) (r c : Fin 8192) :
    val_main_v11 (F := Ideal) X Y (ix3 b r c)
      = Ideal.ofBits .f32 0x40000000#32 * ∑ k : Fin 128, X (ix3 b r k) * Y (ix3 b c k) := by
  rw [val_main_v11_apply, val_main_v10_apply, val_main_cst_1_apply, val_main_v6_apply, Ideal.mulf_def, Ideal.ofBits_def]
  refine congrArg (Ideal.ofBits .f32 0x40000000#32 * ·) (Finset.sum_congr rfl fun k _ => ?_)
  have el : lidx_main_v6 (ix3 b r c) k = ix3 b r k :=
    funext fun a => Fin.ext (by match a with | ⟨0, _⟩ => rfl | ⟨1, _⟩ => rfl | ⟨2, _⟩ => rfl)
  have er : ridx_main_v6 (ix3 b r c) k = ix3 b c k :=
    funext fun a => Fin.ext (by match a with | ⟨0, _⟩ => rfl | ⟨1, _⟩ => rfl | ⟨2, _⟩ => rfl)
  rw [el, er]

/-- The reference's distance matrix, entry (b, r, c), is the squared distance of the specification. -/
theorem dist_entry (X Y : (⟨S4x8192x128, .f32⟩ : BufTy).Contents (Elt Ideal)) (b : Fin 4) (r c : Fin 8192) :
    val_main_v12 (F := Ideal) X Y (ix3 b r c) = dist X Y b r c := by
  rw [val_main_v12_apply, val_main_v9_apply, Ideal.subf_def, Ideal.addf_def, rowNorm_entry, colNorm_entry, cross_entry]
  rfl

/-- The specification's distance at natural-number indices read from Fin indices. -/
theorem distN_fin (X Y : Arr) (b : Fin 4) (r c : Fin 8192) : distN X Y b.val r.val c.val = dist X Y b r c := by
  unfold distN
  rw [f4_fin, f8192_fin, f8192_fin]

/-- Putting column k back into the reduced index (b, r) gives (b, r, k). -/
theorem lift_cols (h : S4x8192x8192.Reduces [2] S4x8192) (b : Fin 4) (r : Fin 8192) (k : Fin (S4x8192x8192.size 2)) :
    h.lift (ix2 b r) k = ix3 b r (⟨k.val, k.isLt⟩ : Fin 8192) := by
  funext c; apply Fin.ext
  fin_cases c <;> rfl

/-- Putting row k back into the reduced index (b, c) gives (b, k, c). -/
theorem lift_rows (h : S4x8192x8192.Reduces [1] S4x8192) (b : Fin 4) (c : Fin 8192) (k : Fin (S4x8192x8192.size 1)) :
    h.lift (ix2 b c) k = ix3 b (⟨k.val, k.isLt⟩ : Fin 8192) c := by
  funext a; apply Fin.ext
  fin_cases a <;> rfl

/-- Putting coordinate k back into the reduced index (b) gives (b, k). -/
theorem lift_outer (h : S4x8192.Reduces [1] S4) (b : Fin 4) (k : Fin (S4x8192.size 1)) :
    h.lift (ix1 b) k = ix2 b (⟨k.val, k.isLt⟩ : Fin 8192) := by
  funext a; apply Fin.ext
  fin_cases a <;> rfl

/-- The reference's row minima: entry (b, r) is the minimum over all columns of the distance. -/
theorem rowMin_read (X Y : (⟨S4x8192x128, .f32⟩ : BufTy).Contents (Elt Ideal)) (b : Fin 4) (r : Fin 8192) :
    val_main_v13 (F := Ideal) X Y (ix2 b r) = (range 8192).inf fun c => distN X Y b.val r.val c := by
  unfold val_main_v13
  have h : S4x8192x8192.Reduces [2] S4x8192 := by decide
  rw [Host.reduce_eq_fold_single FloatOps.minimumf _ _ Facts₀.reducesTo_S4x8192x8192_S4x8192_d2 h Facts₀.h_S_]
  refine (fold_eq_inf (FloatOps.minimumf (F := Ideal) (φ := .f32)) (fun x y => Ideal.minimumf_def x y) _ posInf_eq_top _ _).trans ?_
  refine univ_inf_eq_range_inf _ _ fun k => ?_
  rw [Function.comp_apply, lift_cols, dist_entry]
  exact (distN_fin X Y b r ⟨k.val, k.isLt⟩).symm

/-- The reference's column minima: entry (b, c) is the minimum over all rows of the distance. -/
theorem colMin_read (X Y : (⟨S4x8192x128, .f32⟩ : BufTy).Contents (Elt Ideal)) (b : Fin 4) (c : Fin 8192) :
    val_main_v15 (F := Ideal) X Y (ix2 b c) = (range 8192).inf fun r => distN X Y b.val r c.val := by
  unfold val_main_v15
  have h : S4x8192x8192.Reduces [1] S4x8192 := by decide
  rw [Host.reduce_eq_fold_single FloatOps.minimumf _ _ Facts₀.reducesTo_S4x8192x8192_S4x8192_d1 h Facts₀.h_S_]
  refine (fold_eq_inf (FloatOps.minimumf (F := Ideal) (φ := .f32)) (fun x y => Ideal.minimumf_def x y) _ posInf_eq_top _ _).trans ?_
  refine univ_inf_eq_range_inf _ _ fun k => ?_
  rw [Function.comp_apply, lift_rows, dist_entry]
  exact (distN_fin X Y b ⟨k.val, k.isLt⟩ c).symm

/-- The reference's largest row minimum of batch b. -/
theorem rowSide_read (X Y : (⟨S4x8192x128, .f32⟩ : BufTy).Contents (Elt Ideal)) (b : Fin 4) :
    val_main_v14 (F := Ideal) X Y (ix1 b)
      = (range 8192).sup fun r => (range 8192).inf fun c => distN X Y b.val r c := by
  unfold val_main_v14
  have h : S4x8192.Reduces [1] S4 := by decide
  rw [Host.reduce_eq_fold_single FloatOps.maximumf _ _ Facts₀.reducesTo_S4x8192_S4_d1 h Facts₀.h_S_]
  refine (fold_eq_sup (FloatOps.maximumf (F := Ideal) (φ := .f32)) (fun x y => Ideal.maximumf_def x y) _ negInf_eq_bot _ _).trans ?_
  refine univ_sup_eq_range_sup _ _ fun k => ?_
  rw [Function.comp_apply, lift_outer]
  exact rowMin_read X Y b ⟨k.val, k.isLt⟩

/-- The reference's largest column minimum of batch b. -/
theorem colSide_read (X Y : (⟨S4x8192x128, .f32⟩ : BufTy).Contents (Elt Ideal)) (b : Fin 4) :
    val_main_v16 (F := Ideal) X Y (ix1 b)
      = (range 8192).sup fun c => (range 8192).inf fun r => distN X Y b.val r c := by
  unfold val_main_v16
  have h : S4x8192.Reduces [1] S4 := by decide
  rw [Host.reduce_eq_fold_single FloatOps.maximumf _ _ Facts₀.reducesTo_S4x8192_S4_d1 h Facts₀.h_S_]
  refine (fold_eq_sup (FloatOps.maximumf (F := Ideal) (φ := .f32)) (fun x y => Ideal.maximumf_def x y) _ negInf_eq_bot _ _).trans ?_
  refine univ_sup_eq_range_sup _ _ fun k => ?_
  rw [Function.comp_apply, lift_outer]
  exact colMin_read X Y b ⟨k.val, k.isLt⟩

end Cert.Hausdorff.RefAux

namespace Cert.Hausdorff

open Idealize.ShloMosaic Idealize.ShloMosaic.ValueIdx

/-- The reference program's result, at the extended reals, is the function of the specification: for each batch the
    larger of the largest row minimum and the largest column minimum of the squared-distance matrix. -/
theorem ref_value (X Y : (⟨Cert.ReferenceIdeal.S4x8192x128, .f32⟩ : Idealize.ShloMosaic.BufTy).Contents (Idealize.ShloMosaic.Elt Idealize.ShloMosaic.Ideal)) :
    Cert.ReferenceIdeal.Read.val_main_v17 (F := Idealize.ShloMosaic.Ideal) X Y = Cert.Hausdorff.result X Y := by
  funext i
  obtain ⟨b, rfl⟩ : ∃ b : Fin 4, i = ix1 b := ⟨i 0, eq_ix1 i⟩
  rw [Cert.ReferenceIdeal.Read.val_main_v17_apply, Ideal.maximumf_def, RefAux.rowSide_read, RefAux.colSide_read]
  rfl

end Cert.Hausdorff

end
-- ==== Proof.lean ====
/-
  The kernel (a tiled sweep over the 8 x 8 tiles of each batch's matrix of squared distances between the rows of X
  and the rows of Y, keeping running column minima, running row minima and the running maximum of finished rows'
  minima in scratch buffers) against its reference (the whole distance matrix, its row minima and column minima, and
  the larger of their two maxima), at the ideal instance where floats are extended reals.

  Both programs compute, for each of the four batches, the function Cert.Hausdorff.hd of the batch's distance matrix
  (x_r . x_r + y_c . y_c) - 2 (x_r . y_c): the kernel by the sweep invariant (minima and maxima over ranges of rows
  and columns extended one tile at a time; the only laws used are those of min and max on a linear order, so the
  precondition is never opened), the reference by reading its reductions as minima and maxima over all rows and
  columns. The three frames are the generated frame runs (the reference's with the result dropped); the idealization
  rewrote nothing.
-/
import proofs.«110477_j42082089566512_1_alg».proof.Defs
import proofs.«110477_j42082089566512_1_alg».proof.Proof.Gen.Kernel
import proofs.«110477_j42082089566512_1_alg».proof.Proof.Gen.Kernel.Skeleton
import proofs.«110477_j42082089566512_1_alg».proof.Proof.Gen.Kernel.Launch
import proofs.«110477_j42082089566512_1_alg».proof.Proof.Gen.Kernel.Points
import proofs.«110477_j42082089566512_1_alg».proof.Proof.Gen.Kernel.Frame
import proofs.«110477_j42082089566512_1_alg».proof.Proof.Gen.KernelIdeal
import proofs.«110477_j42082089566512_1_alg».proof.Proof.Gen.KernelIdeal.Skeleton
import proofs.«110477_j42082089566512_1_alg».proof.Proof.Gen.KernelIdeal.Launch
import proofs.«110477_j42082089566512_1_alg».proof.Proof.Gen.KernelIdeal.Points
import proofs.«110477_j42082089566512_1_alg».proof.Proof.Gen.KernelIdeal.Frame
import proofs.«110477_j42082089566512_1_alg».proof.Proof.Gen.ReferenceIdeal
import proofs.«110477_j42082089566512_1_alg».proof.Proof.Gen.Pre_finite_inputs
import proofs.«110477_j42082089566512_1_alg».proof.Proof.Gen.ReferenceIdeal.Run
import proofs.«110477_j42082089566512_1_alg».proof.Proof.Gen.ReferenceIdeal.Read
import proofs.«110477_j42082089566512_1_alg».proof.Proof.Result
import proofs.«110477_j42082089566512_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel's result buffer ends at the vector of the four batches' results of its argument
    arrays, and the reference's at the same function of arguments that agree. -/
theorem algebraic : Cert.algebraic_KernelIdeal_ReferenceIdeal := by
  intro m ρ m' ρ' _ hagree
  refine ⟨fun c => Cert.Hausdorff.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.Hausdorff.ref_value, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
